-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S1024x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S256x1024 : Shape := ⟨2, ![256, 1024]⟩
abbrev S1024x256 : Shape := ⟨2, ![1024, 256]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S4x2048x1024, .f32⟩
  | .hbm, ⟨8, _⟩ => ⟨S4x2048x1024, .f32⟩
  | .hbm, ⟨9, _⟩ => ⟨S4x2048x1024, .bf16⟩
  | .hbm, ⟨10, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .f32 = 32 ∨ (Rect.block (s := S4x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S4x2048x1024.size a
  hwx1_1 : ∀ i : grid1.Coords, EltTy.bits .f32 = 32 ∨ (Rect.block (s := S4x2048x1024) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S4x2048x1024.size a
  hwx1_2 : ∀ i : grid1.Coords, EltTy.bits .bf16 = 32 ∨ (Rect.block (s := S4x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.ProjRegionBits.lean ====
/- Region 0 of the program: the projection kernel (three whole-block stores per grid point), proved at a
   parameter `V` — the TensorCore's buffer contents when the region is entered.

   Per grid point the body reads the row block `x` of the flattened input and the two square matrices, and
   stores `x · rotation`, `x · entangle` and the narrowed `x`, each through the whole-block rectangle. So each
   output's staging buffer after the body is a function of the input blocks alone, the body's triple follows by
   symbolic execution, and the pipeline's proof data keeps the class-A invariant at every point. -/
import proofs.«154830_j65481071407513_2_alg».proof.Proof.Gen.Kernel.Launch
import proofs.«154830_j65481071407513_2_alg».proof.Proof.Gen.Kernel.Skeleton
import proofs.«154830_j65481071407513_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `x`) holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the rotation matrix, whole, fetched at the first point only) holds its block at every
    point: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the entangling matrix, whole, fetched at the first point only), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole-block rectangles -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in each output window's buffer -/

/-- Window 3's staging buffer after the body: its one store, `x · rotation`, as a piece. -/
def out0_3 (x0 : Vec F S512x1024 .f32) (x1 : Vec F S1024x1024 .f32) : Vec F S512x1024 .f32 :=
  View.canon [⟨r0_0, k0_pay2 (View.ld x0 r0_0) (View.ld x1 r0_1)⟩]

/-- Its store tiles the buffer, so it covers it. -/
theorem cover0_3 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 4's staging buffer after the body: its one store, `x · entangle`, as a piece. -/
def out0_4 (x0 : Vec F S512x1024 .f32) (x2 : Vec F S1024x1024 .f32) : Vec F S512x1024 .f32 :=
  View.canon [⟨r0_0, k0_pay3 (View.ld x0 r0_0) (View.ld x2 r0_1)⟩]

/-- Its store tiles the buffer, so it covers it. -/
theorem cover0_4 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 5's staging buffer after the body: its one store, the narrowed `x`, as a piece. -/
def out0_5 (x0 : Vec F S512x1024 .f32) : Vec F S512x1024 .bf16 :=
  View.canon [⟨r0_0, k0_pay4 (View.ld x0 r0_0)⟩]

/-- Its store tiles the buffer, so it covers it. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## Each output buffer IS the payload of its one store -/

theorem hz : (![0, 0] : Fin 2 → Nat) = fun _ => 0 := funext fun a => by fin_cases a <;> rfl

/-- One whole-block store of `x · rotation` of whole-block loads: the buffer is the product. -/
theorem out0_3_eq (x0 : Vec F S512x1024 .f32) (x1 : Vec F S1024x1024 .f32) : out0_3 x0 x1 = k0_pay2 x0 x1 := by
  unfold out0_3
  rw [View.canon_unit_zero hz]
  rw [View.ld_unit_zero (S := S512x1024) hz, View.ld_unit_zero (S := S1024x1024) hz]

/-- One whole-block store of `x · entangle` of whole-block loads: the buffer is the product. -/
theorem out0_4_eq (x0 : Vec F S512x1024 .f32) (x2 : Vec F S1024x1024 .f32) : out0_4 x0 x2 = k0_pay3 x0 x2 := by
  unfold out0_4
  rw [View.canon_unit_zero hz]
  rw [View.ld_unit_zero (S := S512x1024) hz, View.ld_unit_zero (S := S1024x1024) hz]

/-- One whole-block store of the narrowed `x` of a whole-block load: the buffer is the narrowed block. -/
theorem out0_5_eq (x0 : Vec F S512x1024 .f32) : out0_5 x0 = k0_pay4 x0 := by
  unfold out0_5
  rw [View.canon_unit_zero hz]
  rw [View.ld_unit_zero (S := S512x1024) hz]

/-! ## The body's triple -/

set_option maxHeartbeats 1000000 in
/-- The kernel body on whole staging memrefs, the inputs' at read contents `xW` and the outputs' at anything, runs
    to the continuation holding the inputs' as they were and each output's at `out0_W` of the inputs'. -/
theorem sound_kernel0 (c : Dev nD) (E : Set ℕ) (i : grid0.Coords)
    (arg1 : Memref sig .tc .vmem S512x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S512x1024 .f32) (harg4 : arg4.IsWhole)
    (arg5 : Memref sig .tc .vmem S512x1024 .f32) (harg5 : arg5.IsWhole)
    (arg6 : Memref sig .tc .vmem S512x1024 .bf16) (harg6 : arg6.IsWhole)
    (x0 : Vec F S512x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FlashStepBits.lean ====
/-
  One grid point of the attention region, as a pure function of what the point finds.

  The region keeps three running quantities per query row between the points of one (batch, query tile):
  the running maximum `m` of the scaled scores seen so far, the running denominator `l` (the sum of
  exp (score - m) over the keys seen so far) and the running numerator `acc` (the same sum weighted by the
  value rows).  A point with query block `q`, key block `k` and value block `v` replaces the triple
  (m, l, acc) by

      m'   = max m (row maximum of the block's scaled scores)
      l'   = exp (m - m') * l   + row sum of exp (score - m')
      acc' = exp (m - m') * acc + exp (score - m') . v

  which below is spelled with the body's own value terms, so that it holds at every float instance.
  At the first key block the triple the point starts from is (-inf, 0, 0); at the last key block the
  output block is acc' / l'.
-/
import proofs.«154830_j65481071407513_2_alg».proof.Proof.Gen.Kernel.Skeleton

noncomputable section

namespace Cert.Kernel.Hand

open Idealize.ShloMosaic Idealize.SL.Sem Cert.Kernel Cert.Kernel.Gen

variable {F : FTy → Type} [FloatOps F]

/-- The running triple of one query tile: maximum, denominator, numerator. -/
abbrev Triple (F : FTy → Type) [FloatOps F] : Type :=
  Vec F S1024x1 .f32 × Vec F S1024x1 .f32 × Vec F S1024x1024 .f32

/-- The triple a query tile starts from: maximum -inf, denominator 0, numerator 0. -/
def tripleInit : Triple F := (k1_pay4, k1_pay5, k1_pay6)

/-- One key block folded into the running triple. -/
def tripleStep (q : Vec F S1x1024x1024 .f32) (k : Vec F S1x256x1024 .f32) (v : Vec F S1x256x1024 .bf16)
    (s : Triple F) : Triple F :=
  (k1_pay2 (k1_pay9 q k s.1),
   k1_pay12 q k s.1 s.1 s.2.1,
   k1_pay1 (k1_pay7 v) (k1_pay10 q k s.1 s.1) (k1_pay11 q k s.1) s.2.2)

/-- The output block of a query tile from its final triple: numerator over denominator, row by row. -/
def tripleOut (s : Triple F) : Vec F S1x1024x1024 .f32 := k1_pay3 s.2.2 s.2.1

end Cert.Kernel.Hand

end
-- ==== Proof.FlashRunsBits.lean ====
/-
  The attention region (the second kernel region of the program), at the buffer contents `V` it is entered
  with: what its three control cases share.

  The region's grid is 4 x 2 x 8: batch, query tile, key block; the key block is the innermost coordinate, so
  a point's position modulo 8 is its key block.  The body has two conditionals on the key block: at the first
  key block it resets the three running quantities it keeps in scratch memory (row maximum, denominator,
  numerator); at the last key block it divides the numerator by the denominator and stores the output block.
  So there are three cases: first key block (A), a middle one (B), the last one (C).

  Here: each window's block at a point, read off the entry contents; that an input window's staging buffer
  holds its block at every point, fetched there or not; the two conditions in closed form over the grid; at
  which points the output window is idle and not written back; names for the staging and scratch memrefs; and
  the region invariant with the three scratch buffers split out of the rest of the core's scoped memory.
-/
import proofs.«154830_j65481071407513_2_alg».proof.Proof.Gen.Kernel.Launch
import proofs.«154830_j65481071407513_2_alg».proof.Proof.Gen.Kernel.Skeleton
import proofs.«154830_j65481071407513_2_alg».proof.Proof.Gen.Kernel.Points
import proofs.«154830_j65481071407513_2_alg».proof.Proof.FlashStepBits
import Idealize.ShloMosaic.Lib.Pipeline.FrameBody
import Idealize.ShloMosaic.Lib.Pipeline.FrameSuffix
import Idealize.ShloMosaic.Lib.Ring
import Idealize.ShloMosaic.Lib.Tactic

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- one decided closed form at a time: each walks the 64 grid points
set_option Elab.async false

section Blocks

-- the TensorCore's buffer contents when the region is entered
variable (V : (c : Dev nD) → (b : Ref sig .tc) → Buf (Elt F) ((c : Thread nD τ).loc b))

/-! ## The windows' blocks -/

/-- Window `w`'s block at point `t`, read off its array as the region finds it (`V`): the query tile (window 0),
    the key block (1), the value block (2), the output tile (3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds the point's query tile at every point — fetched there (first key
    block) or not (the tile index has not moved since) — for any proof data whose array is `V`'s and whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions -/

/-- The first conditional's condition (key block = 0), from the grid coordinates. -/
abbrev cond1_0 (i : grid1.Coords) : Prop := (Scalar.cmpi .ne (Scalar.extui (Scalar.cmpi .eq (BitVec.ofNat 32 (i 2).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (key block = 7), from the grid coordinates. -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first key block the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- The same at a middle key block. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key block the output window is live: the body stores its block. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x1024x1024 .f32 := (Memref.whole cc1_stg3_0 : Memref sig .tc .vmem S1x1024x1024 .f32).view
/-- Each window's current staging memref at point `t`, as the pipeline passes it to the body, and its wholeness. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands — running maximum, running denominator, running numerator: whole scoped buffers of the
    kernel's own, passed beside the windows and carried from point to point. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The same as views: what each holds is stated through its view. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region invariant, the scratch split out -/

/-- The core's scoped buffers that are neither a staging buffer of this region nor one of its three scratch buffers
    (the other region's staging buffers), each at some contents: carried through every point unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch operands as memrefs owned at some contents, the remainder unopened: what the
    body obligation hands a case's run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.Kernel.Hand

end
-- ==== Proof.FlashRunABits.lean ====
/-
  The attention region's body run whole in case A: a first key block, where the running triple is reset before it is used.
  The body's loads and stores are followed one by one over whole staging and scratch memrefs; what each written
  buffer ends with is found as a list of pieces (rectangle and payload, last store first).
-/
import proofs.«154830_j65481071407513_2_alg».proof.Proof.FlashRunsBits

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE A, a first key block (the first conditional taken, the second not).  What the body's stores leave, as
    pieces (last first), in the output window's staging memref (nothing: the window is idle) and in the three scratch
    memrefs, WITH the proof that on whole memrefs — the inputs' at their blocks, the output's at contents handed back
    untouched, the scratch at anything (the body overwrites all three with the initial triple before it reads them) —
    the body runs to the continuation holding the inputs' as they were and each scratch with its pieces written. -/
noncomputable def kernelRun1_A (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : cond1_0 i) (hc1 : ¬cond1_1 i)
    (x0 : Vec F S1x1024x1024 .f32) (x1 : Vec F S1x256x1024 .f32) (x2 : Vec F S1x256x1024 .bf16) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.FlashRunBBits.lean ====
/-
  The attention region's body run whole in case B: a middle key block, where the running triple is read, updated and stored back.
  The body's loads and stores are followed one by one over whole staging and scratch memrefs; what each written
  buffer ends with is found as a list of pieces (rectangle and payload, last store first).
-/
import proofs.«154830_j65481071407513_2_alg».proof.Proof.FlashRunABits

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE B, a middle key block (neither conditional taken).  As case A, but the three scratch memrefs are handed over
    at the contents the point before left (`xs0`, `xs1`, `xs2`: running maximum, denominator, numerator), which the
    body reads before it overwrites them. -/
noncomputable def kernelRun1_B (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.FlashRunCBits.lean ====
/-
  The attention region's body run whole in case C: a last key block, where after the update the output tile is stored.
  The body's loads and stores are followed one by one over whole staging and scratch memrefs; what each written
  buffer ends with is found as a list of pieces (rectangle and payload, last store first).
-/
import proofs.«154830_j65481071407513_2_alg».proof.Proof.FlashRunBBits

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE C, a last key block (the second conditional taken, the first not).  As case B, and the output window's staging
    memref, handed over at anything, ends with its pieces written: the one store of numerator over denominator. -/
noncomputable def kernelRun1_C (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.FlashCoversBits.lean ====
/-
  What each control case of the attention region's body leaves in the output window's staging buffer and in the
  three scratch buffers (running maximum, denominator, numerator): the pieces the case's run found, which tile
  each buffer they are stored into, read back as contents.
-/
import proofs.«154830_j65481071407513_2_alg».proof.Proof.FlashRunCBits

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A stores nothing into the output window (idle at its points and not written back there): no pieces — a
    placeholder that nothing consults. -/
def out1_A_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for the running maximum's scratch buffer cover it. -/
theorem scover1_A_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in it: its pieces read back over junk. -/
def sout1_A_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for the running denominator's scratch buffer cover it. -/
theorem scover1_A_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in it: its pieces read back over junk. -/
def sout1_A_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for the running numerator's scratch buffer cover it. -/
theorem scover1_A_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in it: its pieces read back over junk. -/
def sout1_A_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output window (idle at its points and not written back there): no pieces — a
    placeholder that nothing consults. -/
def out1_B_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for the running maximum's scratch buffer cover it. -/
theorem scover1_B_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in it: its pieces read back over junk. -/
def sout1_B_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for the running denominator's scratch buffer cover it. -/
theorem scover1_B_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in it: its pieces read back over junk. -/
def sout1_B_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for the running numerator's scratch buffer cover it. -/
theorem scover1_B_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in it: its pieces read back over junk. -/
def sout1_B_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store into the output window covers its block. -/
theorem cover1_C_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output window's staging buffer: its pieces read back over junk. -/
def out1_C_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for the running maximum's scratch buffer cover it. -/
theorem scover1_C_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in it: its pieces read back over junk. -/
def sout1_C_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for the running denominator's scratch buffer cover it. -/
theorem scover1_C_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in it: its pieces read back over junk. -/
def sout1_C_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for the running numerator's scratch buffer cover it. -/
theorem scover1_C_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in it: its pieces read back over junk. -/
def sout1_C_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

end Cert.Kernel.Hand

end
-- ==== Proof.FlashRegionBits.lean ====
/-
  The attention region's half of the frame, at the buffer contents `V` the region is entered with: what each
  control case leaves in the output window's staging buffer and in the three scratch buffers (the runs' pieces,
  which cover them), the accumulation of these point by point, the region invariant that carries the scratch
  contents from a point to the next, the pipeline's proof data, and the body obligation: at every point the
  body, called on the current staging buffers, runs without fault from the invariant before the point to the
  invariant after it.
-/
import proofs.«154830_j65481071407513_2_alg».proof.Proof.FlashCoversBits

-- membership in a rectangle of these extents is checked structurally, once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## What a point leaves -/

/-- The output window's staging buffer and the three scratch buffers (running maximum, denominator, numerator). -/
abbrev Outs4 (F : FTy → Type) [FloatOps F] : Type :=
  Vec F S1x1024x1024 .f32 × Vec F S1024x1 .f32 × Vec F S1024x1 .f32 × Vec F S1024x1024 .f32

/-- What a point of case A leaves: the output window's staging buffer, then the three scratch buffers. -/
def ptA (c : Dev nD) (t : Fin cfg1.N) (h0 : t.val % 8 = 0) (h1 : ¬t.val % 8 = 7) : Outs4 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- What a point of case B leaves over the triple `s` the point before left: the output window's staging buffer, then the three scratch buffers. -/
def ptB (c : Dev nD) (t : Fin cfg1.N) (h0 : ¬t.val % 8 = 0) (h1 : ¬t.val % 8 = 7) (s : Triple F) : Outs4 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2)

/-- What a point of case C leaves over the triple `s` the point before left: the output window's staging buffer, then the three scratch buffers. -/
def ptC (c : Dev nD) (t : Fin cfg1.N) (h0 : ¬t.val % 8 = 0) (h1 : t.val % 8 = 7) (s : Triple F) : Outs4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2)

/-- THE ACCUMULATION.  What the output window's staging buffer and the three scratch buffers hold after the body at
    position `n`: the case the position's key block selects, run at the point's memrefs and input blocks — at a first
    key block from nothing, otherwise over the scratch contents position `n - 1` left (the scratch is the kernel's
    own: nothing touches it between two points). -/
def outsAt1 (c : Dev nD) : (n : ℕ) → n < cfg1.N → Outs4 F
  | 0, hn => ptA V c ⟨0, hn⟩ (Nat.zero_mod _) (by show ¬ 0 % 8 = 7; decide)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

/-- At a first key block: case A's contents. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- At a middle key block: case B's contents over what the point before left. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a last key block: case C's contents over what the point before left. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scratch buffer at anything); afterwards
    the three scratch buffers at what the point before left in them. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ restBut1 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' memrefs hold their blocks; the position's key block says which case the point is
    in; the invariant hands the case's run the three scratch buffers — at anything before the first point, otherwise at
    what the point before left — and takes them back at this point's contents (the run's pieces cover each); at a first
    or middle key block the output window's buffer is handed back as found, at a last one with its block stored; the
    rest of the scoped memory, the generator register and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold ptA sout1_A_0 sout1_A_1 sout1_A_2; (try dsimp only)
      by_cases hz : t.val = 0
      · rw [PhiS_castSucc V c t, PhiS_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨⟨HS0, HS1, HS2⟩, Hrest⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold ptC out1_C_3 sout1_C_0 sout1_C_1 sout1_C_2; (try dsimp only)
      rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold ptB sout1_B_0 sout1_B_1 sout1_B_2; (try dsimp only)
      rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Hand

end
-- ==== Proof.AssemblyBits.lean ====
/- The run of the whole program: its two kernel regions among the reshapes around them, from the launch to
   the return.

   The buffer contents at each boundary are a fold from the launch memory: a stretch of reshapes applies them;
   a region leaves each of its windows' arrays at what its write-backs leave and every other buffer as entered.
   Each region is a segment over the thread state "every unscoped buffer at the boundary's contents, the
   generator register at some state, nothing owed". The run ends with the result array at the last boundary's
   contents and each argument array as launched. -/
import proofs.«154830_j65481071407513_2_alg».proof.Proof.ProjRegionBits
import proofs.«154830_j65481071407513_2_alg».proof.Proof.FlashRegionBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no reshape and no region writes one (a region reads it through an input
    window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ### The result, and what each region is entered with -/

/-- The result array ends at what region 1's write-backs leave in its output window. -/
theorem W4_main_v5 (c : Dev nD) : W4 m ρ c (Proc.devRef .tc main_v5) = (dat1 (V3 m ρ) c).arrAt 3 cfg1.N :=
  W4_arr m ρ c 3

/-- Region 0's input array is the launch input, its two leading axes merged. -/
theorem V1_main_v0 (c : Dev nD) : V1 m ρ c main_v0
    = fun i => shapeCast S8192x1024 (m ((c : Thread nD τ).loc main_arg0)) shapeCasts_S4x2048x1024_S8192x1024 i := by
  show StableHlo.after hostOps0 (W0 m ρ c) (Proc.devRef .tc main_v0) = _
  after_results
  rfl
/-- Region 0 reads the two matrices as launched. -/
theorem V1_main_arg1 (c : Dev nD) : V1 m ρ c main_arg1 = m ((c : Thread nD τ).loc main_arg1) := by
  show StableHlo.after hostOps0 (W0 m ρ c) (Proc.devRef .tc main_arg1) = _
  after_results
theorem V1_main_arg2 (c : Dev nD) : V1 m ρ c main_arg2 = m ((c : Thread nD τ).loc main_arg2) := by
  show StableHlo.after hostOps0 (W0 m ρ c) (Proc.devRef .tc main_arg2) = _
  after_results

/-- Region 1's three input arrays are region 0's three outputs, each with its leading axis split. -/
theorem V3_main_v2 (c : Dev nD) : V3 m ρ c main_v2
    = fun i => shapeCast S4x2048x1024 ((dat0 (V1 m ρ) c).arrAt 3 cfg0.N) shapeCasts_S8192x1024_S4x2048x1024 i := by
  show StableHlo.after hostOps1 (W2 m ρ c) (Proc.devRef .tc main_v2) = _
  after_results
  rw [show W2 m ρ c (Proc.devRef .tc main_v1_0) = _ from W2_arr m ρ c 3]
  rfl
theorem V3_main_v3 (c : Dev nD) : V3 m ρ c main_v3
    = fun i => shapeCast S4x2048x1024 ((dat0 (V1 m ρ) c).arrAt 4 cfg0.N) shapeCasts_S8192x1024_S4x2048x1024 i := by
  show StableHlo.after hostOps1 (W2 m ρ c) (Proc.devRef .tc main_v3) = _
  after_results
  rw [show W2 m ρ c (Proc.devRef .tc main_v1_1) = _ from W2_arr m ρ c 4]
  rfl
theorem V3_main_v4 (c : Dev nD) : V3 m ρ c main_v4
    = fun i => shapeCast S4x2048x1024 ((dat0 (V1 m ρ) c).arrAt 5 cfg0.N) shapeCasts_S8192x1024_S4x2048x1024 i := by
  show StableHlo.after hostOps1 (W2 m ρ c) (Proc.devRef .tc main_v4) = _
  after_results
  rw [show W2 m ρ c (Proc.devRef .tc main_v1_2) = _ from W2_arr m ρ c 5]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of reshapes as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays
    split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its arrays
    split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: a host segment per stretch of reshapes, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has the result array at the last boundary's contents and
    the three argument arrays as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Kernel.Hand

end
-- ==== Proof.ProjRegion.lean ====
/- Region 0 of the program: the projection kernel (three whole-block stores per grid point), proved at a
   parameter `V` — the TensorCore's buffer contents when the region is entered.

   Per grid point the body reads the row block `x` of the flattened input and the two square matrices, and
   stores `x · rotation`, `x · entangle` and the narrowed `x`, each through the whole-block rectangle. So each
   output's staging buffer after the body is a function of the input blocks alone, the body's triple follows by
   symbolic execution, and the pipeline's proof data keeps the class-A invariant at every point. -/
import proofs.«154830_j65481071407513_2_alg».proof.Proof.Gen.KernelIdeal.Launch
import proofs.«154830_j65481071407513_2_alg».proof.Proof.Gen.KernelIdeal.Skeleton
import proofs.«154830_j65481071407513_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of `x`) holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the rotation matrix, whole, fetched at the first point only) holds its block at every
    point: where it is not fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the entangling matrix, whole, fetched at the first point only), likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole-block rectangles -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0

/-! ## What the body leaves in each output window's buffer -/

/-- Window 3's staging buffer after the body: its one store, `x · rotation`, as a piece. -/
def out0_3 (x0 : Vec F S512x1024 .f32) (x1 : Vec F S1024x1024 .f32) : Vec F S512x1024 .f32 :=
  View.canon [⟨r0_0, k0_pay2 (View.ld x0 r0_0) (View.ld x1 r0_1)⟩]

/-- Its store tiles the buffer, so it covers it. -/
theorem cover0_3 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 4's staging buffer after the body: its one store, `x · entangle`, as a piece. -/
def out0_4 (x0 : Vec F S512x1024 .f32) (x2 : Vec F S1024x1024 .f32) : Vec F S512x1024 .f32 :=
  View.canon [⟨r0_0, k0_pay3 (View.ld x0 r0_0) (View.ld x2 r0_1)⟩]

/-- Its store tiles the buffer, so it covers it. -/
theorem cover0_4 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 5's staging buffer after the body: its one store, the narrowed `x`, as a piece. -/
def out0_5 (x0 : Vec F S512x1024 .f32) : Vec F S512x1024 .bf16 :=
  View.canon [⟨r0_0, k0_pay4 (View.ld x0 r0_0)⟩]

/-- Its store tiles the buffer, so it covers it. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## Each output buffer IS the payload of its one store -/

theorem hz : (![0, 0] : Fin 2 → Nat) = fun _ => 0 := funext fun a => by fin_cases a <;> rfl

/-- One whole-block store of `x · rotation` of whole-block loads: the buffer is the product. -/
theorem out0_3_eq (x0 : Vec F S512x1024 .f32) (x1 : Vec F S1024x1024 .f32) : out0_3 x0 x1 = k0_pay2 x0 x1 := by
  unfold out0_3
  rw [View.canon_unit_zero hz]
  rw [View.ld_unit_zero (S := S512x1024) hz, View.ld_unit_zero (S := S1024x1024) hz]

/-- One whole-block store of `x · entangle` of whole-block loads: the buffer is the product. -/
theorem out0_4_eq (x0 : Vec F S512x1024 .f32) (x2 : Vec F S1024x1024 .f32) : out0_4 x0 x2 = k0_pay3 x0 x2 := by
  unfold out0_4
  rw [View.canon_unit_zero hz]
  rw [View.ld_unit_zero (S := S512x1024) hz, View.ld_unit_zero (S := S1024x1024) hz]

/-- One whole-block store of the narrowed `x` of a whole-block load: the buffer is the narrowed block. -/
theorem out0_5_eq (x0 : Vec F S512x1024 .f32) : out0_5 x0 = k0_pay4 x0 := by
  unfold out0_5
  rw [View.canon_unit_zero hz]
  rw [View.ld_unit_zero (S := S512x1024) hz]

/-! ## The body's triple -/

set_option maxHeartbeats 1000000 in
/-- The kernel body on whole staging memrefs, the inputs' at read contents `xW` and the outputs' at anything, runs
    to the continuation holding the inputs' as they were and each output's at `out0_W` of the inputs'. -/
theorem sound_kernel0 (c : Dev nD) (E : Set ℕ) (i : grid0.Coords)
    (arg1 : Memref sig .tc .vmem S512x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S512x1024 .f32) (harg4 : arg4.IsWhole)
    (arg5 : Memref sig .tc .vmem S512x1024 .f32) (harg5 : arg5.IsWhole)
    (arg6 : Memref sig .tc .vmem S512x1024 .bf16) (harg6 : arg6.IsWhole)
    (x0 : Vec F S512x1024 .f32) (x1 : Vec F S1024x1024 .f32) (x2 : Vec F S1024x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at point
    `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FlashStep.lean ====
/-
  One grid point of the attention region, as a pure function of what the point finds.

  The region keeps three running quantities per query row between the points of one (batch, query tile):
  the running maximum `m` of the scaled scores seen so far, the running denominator `l` (the sum of
  exp (score - m) over the keys seen so far) and the running numerator `acc` (the same sum weighted by the
  value rows).  A point with query block `q`, key block `k` and value block `v` replaces the triple
  (m, l, acc) by

      m'   = max m (row maximum of the block's scaled scores)
      l'   = exp (m - m') * l   + row sum of exp (score - m')
      acc' = exp (m - m') * acc + exp (score - m') . v

  which below is spelled with the body's own value terms, so that it holds at every float instance.
  At the first key block the triple the point starts from is (-inf, 0, 0); at the last key block the
  output block is acc' / l'.
-/
import proofs.«154830_j65481071407513_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The running triple of one query tile: maximum, denominator, numerator. -/
abbrev Triple (F : FTy → Type) [FloatOps F] : Type :=
  Vec F S1024x1 .f32 × Vec F S1024x1 .f32 × Vec F S1024x1024 .f32

/-- The triple a query tile starts from: maximum -inf, denominator 0, numerator 0. -/
def tripleInit : Triple F := (k1_pay4, k1_pay5, k1_pay6)

/-- One key block folded into the running triple. -/
def tripleStep (q : Vec F S1x1024x1024 .f32) (k : Vec F S1x256x1024 .f32) (v : Vec F S1x256x1024 .bf16)
    (s : Triple F) : Triple F :=
  (k1_pay2 (k1_pay9 q k s.1),
   k1_pay12 q k s.1 s.1 s.2.1,
   k1_pay1 (k1_pay7 v) (k1_pay10 q k s.1 s.1) (k1_pay11 q k s.1) s.2.2)

/-- The output block of a query tile from its final triple: numerator over denominator, row by row. -/
def tripleOut (s : Triple F) : Vec F S1x1024x1024 .f32 := k1_pay3 s.2.2 s.2.1

end Cert.KernelIdeal.Hand

end
-- ==== Proof.FlashRuns.lean ====
/-
  The attention region (the second kernel region of the program), at the buffer contents `V` it is entered
  with: what its three control cases share.

  The region's grid is 4 x 2 x 8: batch, query tile, key block; the key block is the innermost coordinate, so
  a point's position modulo 8 is its key block.  The body has two conditionals on the key block: at the first
  key block it resets the three running quantities it keeps in scratch memory (row maximum, denominator,
  numerator); at the last key block it divides the numerator by the denominator and stores the output block.
  So there are three cases: first key block (A), a middle one (B), the last one (C).

  Here: each window's block at a point, read off the entry contents; that an input window's staging buffer
  holds its block at every point, fetched there or not; the two conditions in closed form over the grid; at
  which points the output window is idle and not written back; names for the staging and scratch memrefs; and
  the region invariant with the three scratch buffers split out of the rest of the core's scoped memory.
-/
import proofs.«154830_j65481071407513_2_alg».proof.Proof.Gen.KernelIdeal.Launch
import proofs.«154830_j65481071407513_2_alg».proof.Proof.Gen.KernelIdeal.Skeleton
import proofs.«154830_j65481071407513_2_alg».proof.Proof.Gen.KernelIdeal.Points
import proofs.«154830_j65481071407513_2_alg».proof.Proof.FlashStep
import Idealize.ShloMosaic.Lib.Pipeline.FrameBody
import Idealize.ShloMosaic.Lib.Pipeline.FrameSuffix
import Idealize.ShloMosaic.Lib.Ring
import Idealize.ShloMosaic.Lib.Tactic

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- one decided closed form at a time: each walks the 64 grid points
set_option Elab.async false

section Blocks

-- the TensorCore's buffer contents when the region is entered
variable (V : (c : Dev nD) → (b : Ref sig .tc) → Buf (Elt F) ((c : Thread nD τ).loc b))

/-! ## The windows' blocks -/

/-- Window `w`'s block at point `t`, read off its array as the region finds it (`V`): the query tile (window 0),
    the key block (1), the value block (2), the output tile (3). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds the point's query tile at every point — fetched there (first key
    block) or not (the tile index has not moved since) — for any proof data whose array is `V`'s and whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the key window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions -/

/-- The first conditional's condition (key block = 0), from the grid coordinates. -/
abbrev cond1_0 (i : grid1.Coords) : Prop := (Scalar.cmpi .ne (Scalar.extui (Scalar.cmpi .eq (BitVec.ofNat 32 (i 2).val) 0#32)) 0#32) = 1#1
/-- It holds at the points whose position is 0 modulo 8. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (key block = 7), from the grid coordinates. -/
abbrev cond1_1 (i : grid1.Coords) : Prop := k1_cond2 i = 1#1
/-- It holds at the points whose position is 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first key block the output window is idle: the body stores nothing into it, -/
theorem idleAt1_3_A : ∀ t : Fin cfg1.N, cond1_0 (grid1.coords t) → ¬cond1_1 (grid1.coords t) → cfg1.idle 3 (grid1.coords t) = true := by decide +kernel
/-- and the pipeline does not write its block back. -/
theorem noFlush1_3_A : ∀ t : Fin cfg1.N, cond1_0 (grid1.coords t) → ¬cond1_1 (grid1.coords t) → (cfg1.win 3).flush t = false := by decide +kernel
/-- The same at a middle key block. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key block the output window is live: the body stores its block. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated (the choice does not matter). -/
abbrev VO1_3 : View sig .tc .vmem S1x1024x1024 .f32 := (Memref.whole cc1_stg3_0 : Memref sig .tc .vmem S1x1024x1024 .f32).view
/-- Each window's current staging memref at point `t`, as the pipeline passes it to the body, and its wholeness. -/
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands — running maximum, running denominator, running numerator: whole scoped buffers of the
    kernel's own, passed beside the windows and carried from point to point. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The same as views: what each holds is stated through its view. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region invariant, the scratch split out -/

/-- The core's scoped buffers that are neither a staging buffer of this region nor one of its three scratch buffers
    (the other region's staging buffers), each at some contents: carried through every point unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the scratch operands as memrefs owned at some contents, the remainder unopened: what the
    body obligation hands a case's run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole]; try rfl

end Cert.KernelIdeal.Hand

end
-- ==== Proof.FlashRunA.lean ====
/-
  The attention region's body run whole in case A: a first key block, where the running triple is reset before it is used.
  The body's loads and stores are followed one by one over whole staging and scratch memrefs; what each written
  buffer ends with is found as a list of pieces (rectangle and payload, last store first).
-/
import proofs.«154830_j65481071407513_2_alg».proof.Proof.FlashRuns

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE A, a first key block (the first conditional taken, the second not).  What the body's stores leave, as
    pieces (last first), in the output window's staging memref (nothing: the window is idle) and in the three scratch
    memrefs, WITH the proof that on whole memrefs — the inputs' at their blocks, the output's at contents handed back
    untouched, the scratch at anything (the body overwrites all three with the initial triple before it reads them) —
    the body runs to the continuation holding the inputs' as they were and each scratch with its pieces written. -/
noncomputable def kernelRun1_A (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : cond1_0 i) (hc1 : ¬cond1_1 i)
    (x0 : Vec F S1x1024x1024 .f32) (x1 : Vec F S1x256x1024 .f32) (x2 : Vec F S1x256x1024 .bf16) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FlashRunB.lean ====
/-
  The attention region's body run whole in case B: a middle key block, where the running triple is read, updated and stored back.
  The body's loads and stores are followed one by one over whole staging and scratch memrefs; what each written
  buffer ends with is found as a list of pieces (rectangle and payload, last store first).
-/
import proofs.«154830_j65481071407513_2_alg».proof.Proof.FlashRunA

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE B, a middle key block (neither conditional taken).  As case A, but the three scratch memrefs are handed over
    at the contents the point before left (`xs0`, `xs1`, `xs2`: running maximum, denominator, numerator), which the
    body reads before it overwrites them. -/
noncomputable def kernelRun1_B (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.FlashRunC.lean ====
/-
  The attention region's body run whole in case C: a last key block, where after the update the output tile is stored.
  The body's loads and stores are followed one by one over whole staging and scratch memrefs; what each written
  buffer ends with is found as a list of pieces (rectangle and payload, last store first).
-/
import proofs.«154830_j65481071407513_2_alg».proof.Proof.FlashRunB

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- CASE C, a last key block (the second conditional taken, the first not).  As case B, and the output window's staging
    memref, handed over at anything, ends with its pieces written: the one store of numerator over denominator. -/
noncomputable def kernelRun1_C (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole)
    (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FlashCovers.lean ====
/-
  What each control case of the attention region's body leaves in the output window's staging buffer and in the
  three scratch buffers (running maximum, denominator, numerator): the pieces the case's run found, which tile
  each buffer they are stored into, read back as contents.
-/
import proofs.«154830_j65481071407513_2_alg».proof.Proof.FlashRunC

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A stores nothing into the output window (idle at its points and not written back there): no pieces — a
    placeholder that nothing consults. -/
def out1_A_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for the running maximum's scratch buffer cover it. -/
theorem scover1_A_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in it: its pieces read back over junk. -/
def sout1_A_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for the running denominator's scratch buffer cover it. -/
theorem scover1_A_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in it: its pieces read back over junk. -/
def sout1_A_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for the running numerator's scratch buffer cover it. -/
theorem scover1_A_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in it: its pieces read back over junk. -/
def sout1_A_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output window (idle at its points and not written back there): no pieces — a
    placeholder that nothing consults. -/
def out1_B_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for the running maximum's scratch buffer cover it. -/
theorem scover1_B_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in it: its pieces read back over junk. -/
def sout1_B_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for the running denominator's scratch buffer cover it. -/
theorem scover1_B_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in it: its pieces read back over junk. -/
def sout1_B_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for the running numerator's scratch buffer cover it. -/
theorem scover1_B_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in it: its pieces read back over junk. -/
def sout1_B_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's one store into the output window covers its block. -/
theorem cover1_C_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output window's staging buffer: its pieces read back over junk. -/
def out1_C_3 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for the running maximum's scratch buffer cover it. -/
theorem scover1_C_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in it: its pieces read back over junk. -/
def sout1_C_0 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for the running denominator's scratch buffer cover it. -/
theorem scover1_C_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in it: its pieces read back over junk. -/
def sout1_C_1 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for the running numerator's scratch buffer cover it. -/
theorem scover1_C_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in it: its pieces read back over junk. -/
def sout1_C_2 (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

end Cert.KernelIdeal.Hand

end
-- ==== Proof.FlashRegion.lean ====
/-
  The attention region's half of the frame, at the buffer contents `V` the region is entered with: what each
  control case leaves in the output window's staging buffer and in the three scratch buffers (the runs' pieces,
  which cover them), the accumulation of these point by point, the region invariant that carries the scratch
  contents from a point to the next, the pipeline's proof data, and the body obligation: at every point the
  body, called on the current staging buffers, runs without fault from the invariant before the point to the
  invariant after it.
-/
import proofs.«154830_j65481071407513_2_alg».proof.Proof.FlashCovers

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## What a point leaves -/

/-- The output window's staging buffer and the three scratch buffers (running maximum, denominator, numerator). -/
abbrev Outs4 (F : FTy → Type) [FloatOps F] : Type :=
  Vec F S1x1024x1024 .f32 × Vec F S1024x1 .f32 × Vec F S1024x1 .f32 × Vec F S1024x1024 .f32

/-- What a point of case A leaves: the output window's staging buffer, then the three scratch buffers. -/
def ptA (c : Dev nD) (t : Fin cfg1.N) (h0 : t.val % 8 = 0) (h1 : ¬t.val % 8 = 7) : Outs4 F :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
   sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- What a point of case B leaves over the triple `s` the point before left: the output window's staging buffer, then the three scratch buffers. -/
def ptB (c : Dev nD) (t : Fin cfg1.N) (h0 : ¬t.val % 8 = 0) (h1 : ¬t.val % 8 = 7) (s : Triple F) : Outs4 F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2,
   sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) s.1 s.2.1 s.2.2)

/-- What a point of case C leaves over the triple `s` the point before left: the output window's staging buffer, then the three scratch buffers. -/
def ptC (c : Dev nD) (t : Fin cfg1.N) (h0 : ¬t.val % 8 = 0) (h1 : t.val % 8 = 7) (s : Triple F) : Outs4 F :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2,
   sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) s.1 s.2.1 s.2.2)

/-- THE ACCUMULATION.  What the output window's staging buffer and the three scratch buffers hold after the body at
    position `n`: the case the position's key block selects, run at the point's memrefs and input blocks — at a first
    key block from nothing, otherwise over the scratch contents position `n - 1` left (the scratch is the kernel's
    own: nothing touches it between two points). -/
def outsAt1 (c : Dev nD) : (n : ℕ) → n < cfg1.N → Outs4 F
  | 0, hn => ptA V c ⟨0, hn⟩ (Nat.zero_mod _) (by show ¬ 0 % 8 = 7; decide)
  | n + 1, hn =>
    if h0 : (n + 1) % 8 = 0 then
      if h1 : (n + 1) % 8 = 7 then False.elim (by omega)
      else ptA V c ⟨n + 1, hn⟩ h0 h1
    else
      if h1 : (n + 1) % 8 = 7 then ptC V c ⟨n + 1, hn⟩ h0 h1 (outsAt1 c n (Nat.lt_of_succ_lt hn)).2
      else ptB V c ⟨n + 1, hn⟩ h0 h1 (outsAt1 c n (Nat.lt_of_succ_lt hn)).2

/-- At a first key block: case A's contents. -/
theorem outsAt1_A (c : Dev nD) (t : Fin cfg1.N) (h0 : t.val % 8 = 0) (h1 : ¬t.val % 8 = 7) :
    outsAt1 V c t.val t.isLt = ptA V c t h0 h1 := by
  obtain ⟨n, hn⟩ := t
  cases n with
  | zero => exact rfl
  | succ n => exact (dif_pos h0).trans ((dif_neg h1).trans rfl)

/-- At a middle key block: case B's contents over what the point before left. -/
theorem outsAt1_B (c : Dev nD) (t : Fin cfg1.N) (h0 : ¬t.val % 8 = 0) (h1 : ¬t.val % 8 = 7) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- At a last key block: case C's contents over what the point before left. -/
theorem outsAt1_C (c : Dev nD) (t : Fin cfg1.N) (h0 : ¬t.val % 8 = 0) (h1 : t.val % 8 = 7) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point the class's (every scratch buffer at anything); afterwards
    the three scratch buffers at what the point before left in them. -/
def PhiS (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ restBut1 (F := F) c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ restBut1 (F := F) c) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`'s first component; the invariant `PhiS`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The inputs' memrefs hold their blocks; the position's key block says which case the point is
    in; the invariant hands the case's run the three scratch buffers — at anything before the first point, otherwise at
    what the point before left — and takes them back at this point's contents (the run's pieces cover each); at a first
    or middle key block the output window's buffer is handed back as found, at a last one with its block stored; the
    rest of the scoped memory, the generator register and the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold ptA sout1_A_0 sout1_A_1 sout1_A_2; (try dsimp only)
      by_cases hz : t.val = 0
      · rw [PhiS_castSucc V c t, PhiS_zero V c _ _ hz, PhiA1_eq]
        iintro ⟨⟨⟨⟨HS0, HS1, HS2⟩, Hrest⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨⟨HS0, HS1, HS2⟩, Hrest⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest Hg]
        · isplitl [HS0 HS1 HS2 Hrest]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              unfold owns; iexists _; isplitr
              swap; · iexact HS2
              ipureintro; exact View.read_writes_of_cover _ _ _ _ _ (scover1_A_2 c _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold ptC out1_C_3 sout1_C_0 sout1_C_1 sout1_C_2; (try dsimp only)
      rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold ptB sout1_B_0 sout1_B_1 sout1_B_2; (try dsimp only)
      rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch buffers' named contents are
    forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.Assembly.lean ====
/- The run of the whole program: its two kernel regions among the reshapes around them, from the launch to
   the return.

   The buffer contents at each boundary are a fold from the launch memory: a stretch of reshapes applies them;
   a region leaves each of its windows' arrays at what its write-backs leave and every other buffer as entered.
   Each region is a segment over the thread state "every unscoped buffer at the boundary's contents, the
   generator register at some state, nothing owed". The run ends with the result array at the last boundary's
   contents and each argument array as launched. -/
import proofs.«154830_j65481071407513_2_alg».proof.Proof.ProjRegion
import proofs.«154830_j65481071407513_2_alg».proof.Proof.FlashRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no reshape and no region writes one (a region reads it through an input
    window or bypasses it), so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ### The result, and what each region is entered with -/

/-- The result array ends at what region 1's write-backs leave in its output window. -/
theorem W4_main_v5 (c : Dev nD) : W4 m ρ c (Proc.devRef .tc main_v5) = (dat1 (V3 m ρ) c).arrAt 3 cfg1.N :=
  W4_arr m ρ c 3

/-- Region 0's input array is the launch input, its two leading axes merged. -/
theorem V1_main_v0 (c : Dev nD) : V1 m ρ c main_v0
    = fun i => shapeCast S8192x1024 (m ((c : Thread nD τ).loc main_arg0)) shapeCasts_S4x2048x1024_S8192x1024 i := by
  show StableHlo.after hostOps0 (W0 m ρ c) (Proc.devRef .tc main_v0) = _
  after_results
  rfl
/-- Region 0 reads the two matrices as launched. -/
theorem V1_main_arg1 (c : Dev nD) : V1 m ρ c main_arg1 = m ((c : Thread nD τ).loc main_arg1) := by
  show StableHlo.after hostOps0 (W0 m ρ c) (Proc.devRef .tc main_arg1) = _
  after_results
theorem V1_main_arg2 (c : Dev nD) : V1 m ρ c main_arg2 = m ((c : Thread nD τ).loc main_arg2) := by
  show StableHlo.after hostOps0 (W0 m ρ c) (Proc.devRef .tc main_arg2) = _
  after_results

/-- Region 1's three input arrays are region 0's three outputs, each with its leading axis split. -/
theorem V3_main_v2 (c : Dev nD) : V3 m ρ c main_v2
    = fun i => shapeCast S4x2048x1024 ((dat0 (V1 m ρ) c).arrAt 3 cfg0.N) shapeCasts_S8192x1024_S4x2048x1024 i := by
  show StableHlo.after hostOps1 (W2 m ρ c) (Proc.devRef .tc main_v2) = _
  after_results
  rw [show W2 m ρ c (Proc.devRef .tc main_v1_0) = _ from W2_arr m ρ c 3]
  rfl
theorem V3_main_v3 (c : Dev nD) : V3 m ρ c main_v3
    = fun i => shapeCast S4x2048x1024 ((dat0 (V1 m ρ) c).arrAt 4 cfg0.N) shapeCasts_S8192x1024_S4x2048x1024 i := by
  show StableHlo.after hostOps1 (W2 m ρ c) (Proc.devRef .tc main_v3) = _
  after_results
  rw [show W2 m ρ c (Proc.devRef .tc main_v1_1) = _ from W2_arr m ρ c 4]
  rfl
theorem V3_main_v4 (c : Dev nD) : V3 m ρ c main_v4
    = fun i => shapeCast S4x2048x1024 ((dat0 (V1 m ρ) c).arrAt 5 cfg0.N) shapeCasts_S8192x1024_S4x2048x1024 i := by
  show StableHlo.after hostOps1 (W2 m ρ c) (Proc.devRef .tc main_v4) = _
  after_results
  rw [show W2 m ρ c (Proc.devRef .tc main_v1_2) = _ from W2_arr m ρ c 5]
  rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of reshapes as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays
    split out of the unscoped buffers and put back at the exit contents; the generator register into the
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W3`, left at `W4`. Its arrays
    split out of the unscoped buffers and put back at the exit contents; the generator register into the
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine .trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 4 segments in order: a host segment per stretch of reshapes, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and every final state has the result array at the last boundary's contents and
    the three argument arrays as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Hand

end
-- ==== Proof.LibOnlineSoftmax.lean ====
/-
  The online softmax recurrence against the direct softmax-weighted sum, on the extended reals.

  For one query row with scores `s k` against the keys `k` and one output column with values `x k`:

  * the DIRECT form takes the maximum `M` of all scores (a fold of `max` from -inf), the denominator
    `L = sum_k exp (s k - M)`, the weights `exp (s k - M) / L`, and returns `sum_k weight k * x k`;
  * the ONLINE form sees the keys block by block and keeps a running maximum `m`, denominator `l`
    and numerator `a`, started at `(-inf, 0, 0)`; a block with scores `s c` and values `x c` replaces them by
        m' = max m (max_c s c),   l' = exp (m - m') * l + sum_c exp (s c - m'),
        a' = exp (m - m') * a + sum_c exp (s c - m') * x c,
    and the result is `a / l` after the last block.

  When every score and value is a real number both are the real quotient
      (sum_k exp (s k - M) * x k) / (sum_k exp (s k - M))
  for a real shift `M`, and that quotient does not depend on the shift: exp (s - M) = exp (s - M') * exp (M' - M)
  and the common positive factor cancels.  The first block is where the extended reals matter: there
  m = -inf, exp (-inf - m') = 0 and 0 * 0 = 0, so the block's own sums are what is kept.  Realness is needed:
  with an infinite score the rescaling factor and the sums meet 0 * inf and inf - inf.
-/
import Idealize.ShloMosaic.PureOps.Ideal

noncomputable section

namespace Cert.Attn

open Idealize.ShloMosaic
open scoped BigOperators

variable {ι κ : Type} [Fintype ι] [Fintype κ]

/-- The coercion of a finite sum of reals is the sum of the coercions. -/
theorem coe_sum {α : Type} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- A fold of `max` from -inf over real entries is -inf exactly over no entries, and a real otherwise. -/
theorem fold_max_cases {α : Type} (t : Finset α) (f : α → ℝ) :
    (t = ∅ ∧ t.fold max (⊥ : EReal) (fun c => (f c : EReal)) = ⊥)
      ∨ ∃ M : ℝ, t.fold max (⊥ : EReal) (fun c => (f c : EReal)) = (M : EReal) := by
  classical
  induction t using Finset.induction_on with
  | empty => exact Or.inl ⟨rfl, Finset.fold_empty⟩
  | insert a t ha ih =>
    refine Or.inr ?_
    rw [Finset.fold_insert ha]
    rcases ih with ⟨-, h⟩ | ⟨M, h⟩
    · exact ⟨f a, by rw [h, max_bot_right]⟩
    · rcases le_total (f a) M with hle | hle
      · exact ⟨M, by rw [h, max_eq_right (EReal.coe_le_coe_iff.2 hle)]⟩
      · exact ⟨f a, by rw [h, max_eq_left (EReal.coe_le_coe_iff.2 hle)]⟩

/-- Over a nonempty index type the fold is a real. -/
theorem fold_max_real [Nonempty ι] (f : ι → ℝ) :
    ∃ M : ℝ, (Finset.univ : Finset ι).fold max (⊥ : EReal) (fun c => (f c : EReal)) = (M : EReal) := by
  rcases fold_max_cases (Finset.univ : Finset ι) f with ⟨h, -⟩ | h
  · exact absurd h Finset.univ_nonempty.ne_empty
  · exact h

/-! ## The direct form -/

/-- The softmax-weighted sum as a plain reference spells it. -/
def direct (s x : κ → EReal) : EReal :=
  ∑ k, Ideal.div (Ideal.exp (s k - Finset.univ.fold max ⊥ s))
      (∑ k', Ideal.exp (s k' - Finset.univ.fold max ⊥ s)) * x k

theorem exp_sub_coe (a b : ℝ) : Ideal.exp ((a : EReal) - (b : EReal)) = ((Real.exp (a - b) : ℝ) : EReal) := by
  rw [← EReal.coe_sub]; rfl

theorem div_coe_coe (a : ℝ) {b : ℝ} (hb : b ≠ 0) : Ideal.div (a : EReal) (b : EReal) = ((a / b : ℝ) : EReal) := by
  rw [Ideal.div_coe hb, ← EReal.coe_mul, mul_one_div]

theorem sum_exp_pos [Nonempty κ] (f : κ → ℝ) (M : ℝ) : 0 < ∑ k, Real.exp (f k - M) :=
  Finset.sum_pos (fun k _ => Real.exp_pos _) Finset.univ_nonempty

/-- The quotient of the weighted sum by the plain sum does not depend on the shift. -/
theorem quotient_shift [Nonempty κ] (f g : κ → ℝ) (M M' : ℝ) :
    (∑ k, Real.exp (f k - M) * g k) / (∑ k, Real.exp (f k - M))
      = (∑ k, Real.exp (f k - M') * g k) / (∑ k, Real.exp (f k - M')) := by
  have hc : 0 < Real.exp (M' - M) := Real.exp_pos _
  have e : ∀ k, Real.exp (f k - M) = Real.exp (f k - M') * Real.exp (M' - M) := fun k => by
    rw [← Real.exp_add]; congr 1; ring
  have e1 : (∑ k, Real.exp (f k - M) * g k) = (∑ k, Real.exp (f k - M') * g k) * Real.exp (M' - M) := by
    rw [Finset.sum_mul]; exact Finset.sum_congr rfl fun k _ => by rw [e k]; ring
  have e2 : (∑ k, Real.exp (f k - M)) = (∑ k, Real.exp (f k - M')) * Real.exp (M' - M) := by
    rw [Finset.sum_mul]; exact Finset.sum_congr rfl fun k _ => e k
  rw [e1, e2, mul_div_mul_right _ _ hc.ne']

/-- The direct form over real scores and values is the real quotient, at any shift. -/
theorem direct_coe [Nonempty κ] (f g : κ → ℝ) (M : ℝ) :
    direct (fun k => (f k : EReal)) (fun k => (g k : EReal))
      = (((∑ k, Real.exp (f k - M) * g k) / (∑ k, Real.exp (f k - M)) : ℝ) : EReal) := by
  obtain ⟨M0, h0⟩ := fold_max_real f
  have hL : (∑ k, Real.exp (f k - M0)) ≠ 0 := (sum_exp_pos f M0).ne'
  have hsum : (∑ k', Ideal.exp ((f k' : EReal) - (M0 : EReal))) = ((∑ k', Real.exp (f k' - M0) : ℝ) : EReal) := by
    rw [coe_sum]; exact Finset.sum_congr rfl fun k _ => exp_sub_coe _ _
  rw [quotient_shift f g M M0, Finset.sum_div, coe_sum]
  simp only [direct, h0]
  apply Finset.sum_congr rfl
  intro k _
  rw [hsum, exp_sub_coe, div_coe_coe _ hL, ← EReal.coe_mul]
  congr 1; ring

/-! ## The online form -/

/-- One block folded into the running (maximum, denominator, numerator). -/
def step (s x : ι → EReal) (st : EReal × EReal × EReal) : EReal × EReal × EReal :=
  (max st.1 (Finset.univ.fold max ⊥ s),
   Ideal.exp (st.1 - max st.1 (Finset.univ.fold max ⊥ s)) * st.2.1
     + ∑ c, Ideal.exp (s c - max st.1 (Finset.univ.fold max ⊥ s)),
   Ideal.exp (st.1 - max st.1 (Finset.univ.fold max ⊥ s)) * st.2.2
     + ∑ c, Ideal.exp (s c - max st.1 (Finset.univ.fold max ⊥ s)) * x c)

/-- The running triple after the first `n` blocks. -/
def online (s x : ℕ → ι → EReal) : ℕ → EReal × EReal × EReal
  | 0 => (⊥, 0, 0)
  | n + 1 => step (s n) (x n) (online s x n)

theorem sum_exp_coe (f : ι → ℝ) (M : ℝ) :
    (∑ c, Ideal.exp ((f c : EReal) - (M : EReal))) = ((∑ c, Real.exp (f c - M) : ℝ) : EReal) := by
  rw [coe_sum]; exact Finset.sum_congr rfl fun c _ => exp_sub_coe _ _

theorem sum_exp_mul_coe (f g : ι → ℝ) (M : ℝ) :
    (∑ c, Ideal.exp ((f c : EReal) - (M : EReal)) * (g c : EReal)) = ((∑ c, Real.exp (f c - M) * g c : ℝ) : EReal) := by
  rw [coe_sum]; exact Finset.sum_congr rfl fun c _ => by rw [exp_sub_coe, ← EReal.coe_mul]

/-- The first block: from (-inf, 0, 0) the triple becomes the block's own maximum and sums. -/
theorem step_first [Nonempty ι] (f g : ι → ℝ) :
    ∃ M : ℝ, step (fun c => (f c : EReal)) (fun c => (g c : EReal)) (⊥, 0, 0)
      = ((M : EReal), ((∑ c, Real.exp (f c - M) : ℝ) : EReal), ((∑ c, Real.exp (f c - M) * g c : ℝ) : EReal)) := by
  obtain ⟨M, hM⟩ := fold_max_real f
  refine ⟨M, ?_⟩
  unfold step
  simp only [hM, max_bot_left, EReal.bot_sub, Ideal.exp_bot, zero_mul, mul_zero, zero_add]
  rw [sum_exp_coe, sum_exp_mul_coe]

/-- A later block: real triples stay real, rescaled by exp (m - m'). -/
theorem step_next [Nonempty ι] (f g : ι → ℝ) (M L A : ℝ) :
    ∃ M' : ℝ, step (fun c => (f c : EReal)) (fun c => (g c : EReal)) ((M : EReal), (L : EReal), (A : EReal))
      = ((M' : EReal), ((Real.exp (M - M') * L + ∑ c, Real.exp (f c - M') : ℝ) : EReal),
          ((Real.exp (M - M') * A + ∑ c, Real.exp (f c - M') * g c : ℝ) : EReal)) := by
  obtain ⟨Mb, hMb⟩ := fold_max_real f
  refine ⟨max M Mb, ?_⟩
  unfold step
  have hm : max (M : EReal) (Mb : EReal) = ((max M Mb : ℝ) : EReal) := by
    rcases le_total M Mb with h | h
    · rw [max_eq_right h, max_eq_right (EReal.coe_le_coe_iff.2 h)]
    · rw [max_eq_left h, max_eq_left (EReal.coe_le_coe_iff.2 h)]
  simp only [hMb, hm]
  rw [sum_exp_coe, sum_exp_mul_coe, exp_sub_coe, ← EReal.coe_mul, ← EReal.coe_mul, ← EReal.coe_add, ← EReal.coe_add]

/-- After `n + 1` blocks of real scores and values the triple is real: some shift `M`, and the sums at that shift
    over the blocks seen. -/
theorem online_real [Nonempty ι] (s x : ℕ → ι → ℝ) (n : ℕ) :
    ∃ M : ℝ, online (fun j c => (s j c : EReal)) (fun j c => (x j c : EReal)) (n + 1)
      = ((M : EReal), ((∑ j ∈ Finset.range (n + 1), ∑ c, Real.exp (s j c - M) : ℝ) : EReal),
          ((∑ j ∈ Finset.range (n + 1), ∑ c, Real.exp (s j c - M) * x j c : ℝ) : EReal)) := by
  induction n with
  | zero =>
    obtain ⟨M, h⟩ := step_first (s 0) (x 0)
    exact ⟨M, by
      show step _ _ (⊥, 0, 0) = _
      rw [h, Finset.sum_range_one, Finset.sum_range_one]⟩
  | succ n ih =>
    obtain ⟨M, hM⟩ := ih
    obtain ⟨M', h⟩ := step_next (s (n + 1)) (x (n + 1)) M
      (∑ j ∈ Finset.range (n + 1), ∑ c, Real.exp (s j c - M))
      (∑ j ∈ Finset.range (n + 1), ∑ c, Real.exp (s j c - M) * x j c)
    refine ⟨M', ?_⟩
    show step _ _ (online _ _ (n + 1)) = _
    rw [hM, h]
    have e : ∀ j c, Real.exp (M - M') * Real.exp (s j c - M) = Real.exp (s j c - M') := fun j c => by
      rw [← Real.exp_add]; congr 1; ring
    congr 2
    · congr 1
      rw [Finset.sum_range_succ _ (n + 1), Finset.mul_sum]
      congr 1
      exact Finset.sum_congr rfl fun j _ => by
        rw [Finset.mul_sum]; exact Finset.sum_congr rfl fun c _ => e j c
    · congr 1
      rw [Finset.sum_range_succ _ (n + 1), Finset.mul_sum]
      congr 1
      exact Finset.sum_congr rfl fun j _ => by
        rw [Finset.mul_sum]; exact Finset.sum_congr rfl fun c _ => by rw [← mul_assoc, e j c]

/-- THE LAW.  After `n + 1` blocks of real scores and values, numerator over denominator is the direct form over
    all the keys seen: the blocks' scores `s j c` and values `x j c` being the entries `f`, `g` of one row over a
    key index `κ` that the pairs (block, position) enumerate (`e`). -/
theorem online_eq_direct [Nonempty ι] (n : ℕ) (s x : ℕ → ι → ℝ) (f g : κ → ℝ)
    (e : Fin (n + 1) × ι ≃ κ) (hs : ∀ p, f (e p) = s p.1.val p.2) (hx : ∀ p, g (e p) = x p.1.val p.2) :
    Ideal.div (online (fun j c => (s j c : EReal)) (fun j c => (x j c : EReal)) (n + 1)).2.2
        (online (fun j c => (s j c : EReal)) (fun j c => (x j c : EReal)) (n + 1)).2.1
      = direct (fun k => (f k : EReal)) (fun k => (g k : EReal)) := by
  obtain ⟨M, hM⟩ := online_real s x n
  haveI : Nonempty κ := ⟨e (⟨0, Nat.succ_pos n⟩, Classical.arbitrary ι)⟩
  have reidx : ∀ h : ℕ → ι → ℝ, (∑ j ∈ Finset.range (n + 1), ∑ c, h j c) = ∑ p : Fin (n + 1) × ι, h p.1.val p.2 := fun h => by
    rw [Fintype.sum_prod_type, Finset.sum_range]
  have hden : (∑ j ∈ Finset.range (n + 1), ∑ c, Real.exp (s j c - M)) = ∑ k, Real.exp (f k - M) := by
    rw [reidx fun j c => Real.exp (s j c - M), ← Equiv.sum_comp e]
    exact Finset.sum_congr rfl fun p _ => by rw [hs p]
  have hnum : (∑ j ∈ Finset.range (n + 1), ∑ c, Real.exp (s j c - M) * x j c) = ∑ k, Real.exp (f k - M) * g k := by
    rw [reidx fun j c => Real.exp (s j c - M) * x j c, ← Equiv.sum_comp e]
    exact Finset.sum_congr rfl fun p _ => by rw [hs p, hx p]
  rw [hM, direct_coe f g M]
  show Ideal.div ((_ : ℝ) : EReal) ((_ : ℝ) : EReal) = _
  rw [hden, hnum, div_coe_coe _ (sum_exp_pos f M).ne']

end Cert.Attn

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibRowsDot.lean ====
/-
  A matrix times the transpose of another, read at an index, over the extended reals.

  For dimension numbers that contract the left operand's axis 1 with the right operand's axis 1 and keep
  (left axis 0, right axis 0) as the result's axes — rows of the left against rows of the right, the form of
  queries against keys — the contraction at result index `(a, b)` is `Σ_{k < K} l(a, k) · r(b, k)`: the same plain sum for
  a `tpu.matmul` into a zero accumulator and for the host's `dot_general`, whatever the extents. The dimension record
  enters through four coordinate facts about how it reads its operands (for a printed record each holds by
  computation), so the lemmas serve every extent.
-/
import Idealize.ShloMosaic.Lib.ValueIdx
import Idealize.ShloMosaic.PureOps.Ideal.Laws

noncomputable section

namespace Cert.Lib.RowsDot

open Idealize.ShloMosaic Idealize.ShloMosaic.ValueIdx

variable {R K C : Nat} {φ₁ φ₂ : FTy}

/-- How a rows×inner by cols×inner dimension record reads its operands: one contracted axis of extent `K`; at result
    index `i` and contraction position `q` the left operand is read at `(i 0, q)` and the right at `(i 1, q)`. -/
structure Reads (d : DotDims (⟨2, ![R, K]⟩ : Shape) (⟨2, ![C, K]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (i 1).val
  rhs1 : ∀ (i : (⟨2, ![R, C]⟩ : Shape).Idx) (q : d.contr.Idx), (d.rhsIdx i q 1).val = (q ⟨0, by omega⟩).val

variable {d : DotDims (⟨2, ![R, K]⟩ : Shape) (⟨2, ![C, K]⟩ : Shape) (⟨2, ![R, C]⟩ : Shape)}

/-- The sum over the record's contraction index is the sum over the shared inner axis' coordinate. -/
theorem sum_contr (h : Reads d) (l : FVec Ideal (⟨2, ![R, K]⟩ : Shape) φ₁) (r : FVec Ideal (⟨2, ![C, K]⟩ : Shape) φ₂)
    (a : Fin R) (b : Fin C) :
    ∑ q : d.contr.Idx, l (d.lhsIdx (ix2 a b) q) * r (d.rhsIdx (ix2 a b) q) = ∑ k : Fin K, l (ix2 a k) * r (ix2 b k) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 b k := funext fun x => Fin.ext (by
    match x with
    | ⟨0, _⟩ => exact h.rhs0 _ _
    | ⟨1, _⟩ => exact (h.rhs1 _ _).trans hk)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![C, K]⟩ : Shape) φ₂) (a : Fin R) (b : Fin C) :
    FloatOps.matmul d prec l r (constant (⟨2, ![R, C]⟩ : Shape) .f32 0x00000000#32) (ix2 a b)
      = ∑ k : Fin K, l (ix2 a k) * r (ix2 b k) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![C, K]⟩ : Shape) φ₂) (a : Fin R) (b : Fin C) :
    FloatOps.dotGeneral d prec sched l r (ix2 a b) = ∑ k : Fin K, l (ix2 a k) * r (ix2 b k) :=
  (Ideal.dotGeneral_apply d prec sched l r (ix2 a b)).trans (sum_contr h l r a b)

end Cert.Lib.RowsDot

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.StepAtIndex.lean ====
/-
  One grid point of the attention region read entry by entry on the extended reals.

  Row `r` of a query tile meets the 256 keys of a key block with the scaled scores
      score r c = (sum_e q(r, e) * k(c, e)) * (1/32 as the body's literal),
  and the point's new running triple at row `r` (and output column `d`) is the online-softmax step of the old
  triple at that row with these scores and the value column v(., d): nothing in row `r` of the new triple depends on
  another row.  Each lemma below reads one value term of the body at an index; the last ones put them together.
-/
import proofs.«154830_j65481071407513_2_alg».proof.Proof.FlashStep
import proofs.«154830_j65481071407513_2_alg».proof.Proof.LibOnlineSoftmax
import proofs.«154830_j65481071407513_2_alg».proof.Proof.LibPlainDot
import proofs.«154830_j65481071407513_2_alg».proof.Proof.LibRowsDot
import proofs.«154830_j65481071407513_2_alg».proof.Proof.LibColumnLayout
import Idealize.ShloMosaic.Lib.ValueLayout
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

/-! ## The literals -/

theorem negInf_word : Ideal.ofBits .f32 0xFF800000#32 = (⊥ : EReal) := by simp [Ideal.ofBits, Ideal.ieee]

theorem scale_word : Ideal.ofBits .f32 0x3D000000#32 = ((1 / 32 : ℝ) : EReal) := by
  simp [Ideal.ofBits, Ideal.ieee, -EReal.coe_mul]; norm_num

/-! ## How the three contractions read their operands -/

theorem readsQK : Cert.Lib.RowsDot.Reads (R := 1024) (K := 1024) (C := 256) dot_S1024x1024_S256x1024_S1024x256_1_1_0_0_n_n :=
  ⟨rfl, rfl, fun _ _ => rfl, fun i q => dot_S1024x1024_S256x1024_S1024x256_1_1_0_0_n_n.lhsIdx_val_of_single rfl i q,
    fun _ _ => rfl, fun i q => dot_S1024x1024_S256x1024_S1024x256_1_1_0_0_n_n.rhsIdx_val_of_single rfl i q⟩

theorem readsPV : Cert.Lib.PlainDot.Reads (R := 1024) (K := 256) (C := 1024) dot_S1024x256_S256x1024_S1024x1024_1_0_0_1_n_n :=
  ⟨rfl, rfl, fun _ _ => rfl, fun i q => dot_S1024x256_S256x1024_S1024x1024_1_0_0_1_n_n.lhsIdx_val_of_single rfl i q,
    fun i q => dot_S1024x256_S256x1024_S1024x1024_1_0_0_1_n_n.rhsIdx_val_of_single rfl i q, fun _ _ => rfl⟩

theorem readsProj : Cert.Lib.PlainDot.Reads (R := 512) (K := 1024) (C := 1024) dot_S512x1024_S1024x1024_S512x1024_1_0_0_1_n_n :=
  ⟨rfl, rfl, fun _ _ => rfl, fun i q => dot_S512x1024_S1024x1024_S512x1024_1_0_0_1_n_n.lhsIdx_val_of_single rfl i q,
    fun i q => dot_S512x1024_S1024x1024_S512x1024_1_0_0_1_n_n.rhsIdx_val_of_single rfl i q, fun _ _ => rfl⟩

/-! ## The value terms of the attention body at an index -/

section
variable (q : Vec Ideal S1x1024x1024 .f32) (k : Vec Ideal S1x256x1024 .f32) (v : Vec Ideal S1x256x1024 .bf16)

/-- The scaled score of query row `r` against key row `c` of the blocks. -/
def blkScore (r : Fin 1024) (c : Fin 256) : EReal :=
  (∑ e : Fin 1024, q (ix3 (0 : Fin 1) r e) * k (ix3 (0 : Fin 1) c e)) * Ideal.ofBits .f32 0x3D000000#32

theorem pay8_apply (r : Fin 1024) (c : Fin 256) : k1_pay8 (F := Ideal) q k (ix2 r c) = blkScore q k r c := by
  unfold k1_pay8 blkScore
  change FloatOps.matmul dot_S1024x1024_S256x1024_S1024x256_1_1_0_0_n_n (some .fp32)
      (shapeCast S1024x1024 q shapeCasts_S1x1024x1024_S1024x1024) (shapeCast S256x1024 k shapeCasts_S1x256x1024_S256x1024)
      (constant S1024x256 .f32 0x00000000#32) (ix2 r c) * Ideal.ofBits .f32 0x3D000000#32 = _
  rw [Cert.Lib.RowsDot.matmul_zero_apply readsQK]
  congr 1
  apply Finset.sum_congr rfl
  intro e _
  rw [shapeCast_1ab_ab_apply, shapeCast_1ab_ab_apply]

/-- The block's row maximum folded into the running maximum. -/
theorem pay9_apply (m : Vec Ideal S1024x1 .f32) (r : Fin 1024) (u : Fin 1) :
    k1_pay9 (F := Ideal) q k m (ix2 r u)
      = max (m (ix2 r u)) (Finset.univ.fold max (⊥ : EReal) (fun c : Fin 256 => blkScore q k r c)) := by
  unfold k1_pay9
  refine (maximumf_apply _ _ _).trans ?_
  refine congrArg (max (m (ix2 r u))) ?_
  refine (Cert.ColumnLayout.shapeCast_a_a1_apply _ _ r u).trans ?_
  refine (Ideal.multiReduction_maximumf_single _ _ _ _ _ _).trans ?_
  have hb : (FloatOps.ofBits (F := Ideal) .f32 0xFF800000#32 : EReal) = ⊥ := negInf_word
  rw [hb]
  congr 1
  funext c
  have hl : reduces_S1024x256_S1024.lift (ix1 r) c = ix2 r c := funext fun a => Fin.ext (by
    match a with
    | ⟨0, _⟩ => rfl
    | ⟨1, _⟩ => rfl)
  change k1_pay8 (F := Ideal) q k (reduces_S1024x256_S1024.lift (ix1 r) c) = _
  rw [hl]
  exact pay8_apply q k r c

theorem pay10_apply (m m' : Vec Ideal S1024x1 .f32) (r : Fin 1024) (u : Fin 1) :
    k1_pay10 (F := Ideal) q k m m' (ix2 r u) = Ideal.exp (m' (ix2 r u) - k1_pay9 (F := Ideal) q k m (ix2 r u)) := rfl

theorem pay11_apply (m : Vec Ideal S1024x1 .f32) (r : Fin 1024) (c : Fin 256) :
    k1_pay11 (F := Ideal) q k m (ix2 r c)
      = Ideal.exp (blkScore q k r c - k1_pay9 (F := Ideal) q k m (ix2 r (0 : Fin 1))) := by
  unfold k1_pay11
  change Ideal.exp (k1_pay8 (F := Ideal) q k (ix2 r c)
      - broadcastTo S1024x256 (k1_pay9 (F := Ideal) q k m) broadcasts_S1024x1_S1024x256 (ix2 r c)) = _
  rw [pay8_apply, Cert.ColumnLayout.broadcastTo_a1_ab_apply]

theorem pay12_apply (m m' l : Vec Ideal S1024x1 .f32) (r : Fin 1024) (u : Fin 1) :
    k1_pay12 (F := Ideal) q k m m' l (ix2 r u)
      = k1_pay10 (F := Ideal) q k m m' (ix2 r u) * l (ix2 r u) + ∑ c : Fin 256, k1_pay11 (F := Ideal) q k m (ix2 r c) := by
  unfold k1_pay12
  change shapeCast S1024x1 (addf (mulf (k1_pay10 (F := Ideal) q k m m') l)
      (shapeCast S1024x1 (multiReduction .add [1] S1024 (k1_pay11 (F := Ideal) q k m) 0x00000000#32
        reduces_S1024x256_S1024 (.inl rfl) rfl) shapeCasts_S1024_S1024x1)) shapeCasts_S1024x1_S1024x1 (ix2 r u) = _
  rw [shapeCast_self]
  change k1_pay10 (F := Ideal) q k m m' (ix2 r u) * l (ix2 r u)
      + shapeCast S1024x1 (multiReduction .add [1] S1024 (k1_pay11 (F := Ideal) q k m) 0x00000000#32
        reduces_S1024x256_S1024 (.inl rfl) rfl) shapeCasts_S1024_S1024x1 (ix2 r u) = _
  congr 1
  refine (Cert.ColumnLayout.shapeCast_a_a1_apply _ _ r u).trans ?_
  refine (Ideal.multiReduction_add_single _ _ _ _ _ _).trans ?_
  apply Finset.sum_congr rfl
  intro c _
  exact congrArg (k1_pay11 (F := Ideal) q k m) (funext fun a => Fin.ext (by
    match a with
    | ⟨0, _⟩ => rfl
    | ⟨1, _⟩ => rfl))

theorem pay7_apply (c : Fin 256) (d : Fin 1024) : k1_pay7 (F := Ideal) v (ix2 c d) = v (ix3 (0 : Fin 1) c d) := by
  unfold k1_pay7
  exact shapeCast_1ab_ab_apply _ _ c d

theorem pay1_apply (v8 : FVec Ideal S256x1024 .bf16) (a : FVec Ideal S1024x1 .f32) (p : FVec Ideal S1024x256 .f32)
    (acc : Vec Ideal S1024x1024 .f32) (r d : Fin 1024) :
    k1_pay1 (F := Ideal) v8 a p acc (ix2 r d)
      = a (ix2 r (0 : Fin 1)) * acc (ix2 r d) + ∑ c : Fin 256, p (ix2 r c) * v8 (ix2 c d) := by
  unfold k1_pay1
  change shapeCast S1024x1024 (addf (mulf (broadcastTo S1024x1024 a broadcasts_S1024x1_S1024x1024) acc)
      (matmul dot_S1024x256_S256x1024_S1024x1024_1_0_0_1_n_n none (truncf .bf16 p bitsLt_bf16_f32) v8
        (constant S1024x1024 .f32 0x00000000#32))) shapeCasts_S1024x1024_S1024x1024 (ix2 r d) = _
  rw [shapeCast_self]
  change broadcastTo S1024x1024 a broadcasts_S1024x1_S1024x1024 (ix2 r d) * acc (ix2 r d)
      + FloatOps.matmul dot_S1024x256_S256x1024_S1024x1024_1_0_0_1_n_n none (truncf .bf16 p bitsLt_bf16_f32) v8
        (constant S1024x1024 .f32 0x00000000#32) (ix2 r d) = _
  rw [Cert.ColumnLayout.broadcastTo_a1_ab_apply, Cert.Lib.PlainDot.matmul_zero_apply readsPV]
  rfl

theorem pay3_apply (acc : Vec Ideal S1024x1024 .f32) (l : Vec Ideal S1024x1 .f32) (r d : Fin 1024) :
    k1_pay3 (F := Ideal) acc l (ix3 (0 : Fin 1) r d) = Ideal.div (acc (ix2 r d)) (l (ix2 r (0 : Fin 1))) := by
  unfold k1_pay3
  rw [shapeCast_ab_1ab_apply]
  change Ideal.div (acc (ix2 r d)) (broadcastTo S1024x1024 l broadcasts_S1024x1_S1024x1024 (ix2 r d)) = _
  rw [Cert.ColumnLayout.broadcastTo_a1_ab_apply]

theorem pay4_apply (r : Fin 1024) (u : Fin 1) : k1_pay4 (F := Ideal) (ix2 r u) = (⊥ : EReal) := by
  unfold k1_pay4; rw [shapeCast_self]; exact negInf_word

theorem pay5_apply (r : Fin 1024) (u : Fin 1) : k1_pay5 (F := Ideal) (ix2 r u) = (0 : EReal) := by
  unfold k1_pay5; rw [shapeCast_self]; exact Ideal.ofBits_zero_f32

theorem pay6_apply (r d : Fin 1024) : k1_pay6 (F := Ideal) (ix2 r d) = (0 : EReal) := by
  unfold k1_pay6; rw [shapeCast_self]; exact Ideal.ofBits_zero_f32

end

/-! ## The running triple at a row -/

/-- Row `r` of the running triple, with the numerator's column `d`. -/
def tripleAt (s : Triple Ideal) (r d : Fin 1024) : EReal × EReal × EReal :=
  (s.1 (ix2 r (0 : Fin 1)), s.2.1 (ix2 r (0 : Fin 1)), s.2.2 (ix2 r d))

theorem tripleInit_at (r d : Fin 1024) : tripleAt (tripleInit (F := Ideal)) r d = (⊥, 0, 0) := by
  unfold tripleAt tripleInit
  dsimp only
  rw [pay4_apply, pay5_apply, pay6_apply]

/-- A point's step of the running triple is, row by row, the online-softmax step with the row's scaled scores against
    the key block and the value block's column. -/
theorem tripleStep_at (q : Vec Ideal S1x1024x1024 .f32) (k : Vec Ideal S1x256x1024 .f32) (v : Vec Ideal S1x256x1024 .bf16)
    (s : Triple Ideal) (r d : Fin 1024) :
    tripleAt (tripleStep q k v s) r d
      = Cert.Attn.step (fun c : Fin 256 => blkScore q k r c) (fun c : Fin 256 => v (ix3 (0 : Fin 1) c d)) (tripleAt s r d) := by
  unfold tripleAt tripleStep Cert.Attn.step
  have e2 : k1_pay2 (F := Ideal) (k1_pay9 (F := Ideal) q k s.1) = k1_pay9 (F := Ideal) q k s.1 := by
    unfold k1_pay2; exact shapeCast_self _ _
  refine Prod.ext ?_ (Prod.ext ?_ ?_)
  · change k1_pay2 (F := Ideal) (k1_pay9 (F := Ideal) q k s.1) (ix2 r (0 : Fin 1)) = _
    rw [e2, pay9_apply]
  · change k1_pay12 (F := Ideal) q k s.1 s.1 s.2.1 (ix2 r (0 : Fin 1)) = _
    rw [pay12_apply, pay10_apply, pay9_apply]
    congr 1
    apply Finset.sum_congr rfl
    intro c _
    rw [pay11_apply, pay9_apply]
  · change k1_pay1 (F := Ideal) (k1_pay7 (F := Ideal) v) (k1_pay10 (F := Ideal) q k s.1 s.1) (k1_pay11 (F := Ideal) q k s.1) s.2.2 (ix2 r d) = _
    rw [pay1_apply, pay10_apply, pay9_apply]
    congr 1
    apply Finset.sum_congr rfl
    intro c _
    rw [pay11_apply, pay9_apply, pay7_apply]

/-- The output block at a row: numerator over denominator. -/
theorem tripleOut_at (s : Triple Ideal) (r d : Fin 1024) :
    tripleOut s (ix3 (0 : Fin 1) r d) = Ideal.div (tripleAt s r d).2.2 (tripleAt s r d).2.1 := by
  unfold tripleOut tripleAt
  exact pay3_apply _ _ r d

end Cert.KernelIdeal.Hand

end
-- ==== Proof.ProjValue.lean ====
/-
  The projection region's three output arrays as whole-array functions of what the region finds.

  Point `t` of the 16 stages rows 512 t … 512 t + 511 of the flattened x (8192 rows of 1024) beside the two whole
  projection matrices and writes back, for the same rows, the two products and the rows themselves in the narrower
  format (the same extended reals).  The bands tile the array, so after the region the arrays are the two flat
  products `x2d · rot`, `x2d · ent` and `x2d` itself, row by row.
-/
import proofs.«154830_j65481071407513_2_alg».proof.Proof.ProjRegion
import proofs.«154830_j65481071407513_2_alg».proof.Proof.StepAtIndex
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

/-- The flat product of an [8192, 1024] array by a [1024, 1024] matrix. -/
def proj2d (x : S8192x1024.Idx → EReal) (w : S1024x1024.Idx → EReal) : S8192x1024.Idx → EReal := fun i =>
  ∑ d : Fin 1024, x (ix2 (i 0) d) * w (ix2 d (i 1))

/-- The body's product of the staged rows by a staged matrix, at an index. -/
theorem pay_proj_apply (x0 : Vec Ideal S512x1024 .f32) (x1 : Vec Ideal S1024x1024 .f32) (j : S512x1024.Idx) :
    k0_pay2 (F := Ideal) x0 x1 j = ∑ d : Fin 1024, x0 (ix2 (j 0) d) * x1 (ix2 d (j 1)) := by
  rw [eq_ix2 j]
  unfold k0_pay2 k0_pay1
  rw [shapeCast_self]
  exact Cert.Lib.PlainDot.matmul_zero_apply readsProj _ _ _ (j 0) (j 1)

theorem pay3_eq_pay2 (x0 : Vec Ideal S512x1024 .f32) (x1 : Vec Ideal S1024x1024 .f32) :
    k0_pay3 (F := Ideal) x0 x1 = k0_pay2 (F := Ideal) x0 x1 := rfl

/-- The body's copy of the staged rows into the narrower format: the same extended reals. -/
theorem pay_copy_apply (x0 : Vec Ideal S512x1024 .f32) (j : S512x1024.Idx) : k0_pay4 (F := Ideal) x0 j = x0 j := by
  unfold k0_pay4 k0_pay1
  rw [shapeCast_self]
  rfl

/-- The printed index maps, decided over the 16 points: the row bands move with the point, the matrices stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The three arrays the region reads, as arrays of extended reals. -/
abbrev rdX (c : Dev nD) : S8192x1024.Idx → EReal := V c main_v0
abbrev rdRot (c : Dev nD) : S1024x1024.Idx → EReal := V c main_arg1
abbrev rdEnt (c : Dev nD) : S1024x1024.Idx → EReal := V c main_arg2

/-! ## Output window 3 -/

/-- An index of the array is in point `t`'s block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1_0).slice (win0_3.rect t)).set ↔ _
  rw [View.set_slice_whole, Rect.mem_set_unit]
  exact Iff.rfl

/-- Every row of the array lies in the block of the point that owns its 512-row band. -/
theorem tiles0_3 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  refine ⟨⟨(i 0).val / 512, by rw [show cfg0.N = 16 from N_0]; omega⟩, flush0_3 _, ?_⟩
  rw [mem_blk0_3]
  obtain ⟨e00, e01, e10, e11, e20, e21, e30, e31, e40, e41, e50, e51⟩ := idx_facts0 ⟨(i 0).val / 512, by rw [show cfg0.N = 16 from N_0]; omega⟩
  intro a
  match a with
  | ⟨0, _⟩ =>
    show win0_3.index _ (0 : Fin 2) * 512 ≤ (i 0).val ∧ (i 0).val < win0_3.index _ (0 : Fin 2) * 512 + 512
    rw [e30]; dsimp only; omega
  | ⟨1, _⟩ =>
    show win0_3.index _ (1 : Fin 2) * 1024 ≤ (i 1).val ∧ (i 1).val < win0_3.index _ (1 : Fin 2) * 1024 + 1024
    rw [e31]; omega

/-- What point `t` writes back is its block of proj2d (rdX V c) (rdRot V c). -/
theorem flushed0_3_eq (c : Dev nD) (t : Fin cfg0.N) :
    (dat0 V c).flushed 3 t = ((cfg0.win 3).blk t).view.read (Elt Ideal) (proj2d (rdX V c) (rdRot V c)) := by
  show (cfg0.win 3).cut (grid0.coords t) ((dat0 V c).after 3 t) = _
  rw [after0_3, out0_3_eq]
  obtain ⟨e00, e01, e10, e11, e20, e21, e30, e31, e40, e41, e50, e51⟩ := idx_facts0 t
  funext j
  refine (pay_proj_apply _ _ _).trans ?_
  show (∑ d : Fin 1024, rdX V c (((cfg0.win 0).blk t).view.emb (ix2 (j 0) d)) * rdRot V c (((cfg0.win 1).blk t).view.emb (ix2 d (j 1))))
      = ∑ d : Fin 1024, rdX V c (ix2 ((((cfg0.win 3).blk t).view.emb j) 0) d) * rdRot V c (ix2 d ((((cfg0.win 3).blk t).view.emb j) 1))
  apply Finset.sum_congr rfl
  intro d _
  have h0 : ((cfg0.win 0).blk t).view.emb (ix2 (j 0) d) = ix2 ((((cfg0.win 3).blk t).view.emb j) 0) d := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * d.val = d.val; omega
  have h1 : ((cfg0.win 1).blk t).view.emb (ix2 d (j 1)) = ix2 d ((((cfg0.win 3).blk t).view.emb j) 1) := by
    funext a; apply Fin.ext
    match a with
    | ⟨0, _⟩ => show win0_1.index t (0 : Fin 2) * 1024 + 1 * d.val = d.val; omega
    | ⟨1, _⟩ => show win0_1.index t (1 : Fin 2) * 1024 + 1 * (j 1).val = win0_3.index t (1 : Fin 2) * 1024 + 1 * (j 1).val; omega
  rw [h0, h1]
  rfl

/-- The array after the region. -/
theorem final0_3 (c : Dev nD) : (dat0 V c).arrAt 3 cfg0.N = proj2d (rdX V c) (rdRot V c) :=
  (dat0 V c).arrAt_eq_of_cover 3 _ (fun t _ => flushed0_3_eq V c t) tiles0_3

/-! ## Output window 4 -/

/-- An index of the array is in point `t`'s block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1_1).slice (win0_4.rect t)).set ↔ _
  rw [View.set_slice_whole, Rect.mem_set_unit]
  exact Iff.rfl

/-- Every row of the array lies in the block of the point that owns its 512-row band. -/
theorem tiles0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  refine ⟨⟨(i 0).val / 512, by rw [show cfg0.N = 16 from N_0]; omega⟩, flush0_4 _, ?_⟩
  rw [mem_blk0_4]
  obtain ⟨e00, e01, e10, e11, e20, e21, e30, e31, e40, e41, e50, e51⟩ := idx_facts0 ⟨(i 0).val / 512, by rw [show cfg0.N = 16 from N_0]; omega⟩
  intro a
  match a with
  | ⟨0, _⟩ =>
    show win0_4.index _ (0 : Fin 2) * 512 ≤ (i 0).val ∧ (i 0).val < win0_4.index _ (0 : Fin 2) * 512 + 512
    rw [e40]; dsimp only; omega
  | ⟨1, _⟩ =>
    show win0_4.index _ (1 : Fin 2) * 1024 ≤ (i 1).val ∧ (i 1).val < win0_4.index _ (1 : Fin 2) * 1024 + 1024
    rw [e41]; omega

/-- What point `t` writes back is its block of proj2d (rdX V c) (rdEnt V c). -/
theorem flushed0_4_eq (c : Dev nD) (t : Fin cfg0.N) :
    (dat0 V c).flushed 4 t = ((cfg0.win 4).blk t).view.read (Elt Ideal) (proj2d (rdX V c) (rdEnt V c)) := by
  show (cfg0.win 4).cut (grid0.coords t) ((dat0 V c).after 4 t) = _
  rw [after0_4, out0_4_eq, pay3_eq_pay2]
  obtain ⟨e00, e01, e10, e11, e20, e21, e30, e31, e40, e41, e50, e51⟩ := idx_facts0 t
  funext j
  refine (pay_proj_apply _ _ _).trans ?_
  show (∑ d : Fin 1024, rdX V c (((cfg0.win 0).blk t).view.emb (ix2 (j 0) d)) * rdEnt V c (((cfg0.win 2).blk t).view.emb (ix2 d (j 1))))
      = ∑ d : Fin 1024, rdX V c (ix2 ((((cfg0.win 4).blk t).view.emb j) 0) d) * rdEnt V c (ix2 d ((((cfg0.win 4).blk t).view.emb j) 1))
  apply Finset.sum_congr rfl
  intro d _
  have h0 : ((cfg0.win 0).blk t).view.emb (ix2 (j 0) d) = ix2 ((((cfg0.win 4).blk t).view.emb j) 0) d := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * d.val = d.val; omega
  have h1 : ((cfg0.win 2).blk t).view.emb (ix2 d (j 1)) = ix2 d ((((cfg0.win 4).blk t).view.emb j) 1) := by
    funext a; apply Fin.ext
    match a with
    | ⟨0, _⟩ => show win0_2.index t (0 : Fin 2) * 1024 + 1 * d.val = d.val; omega
    | ⟨1, _⟩ => show win0_2.index t (1 : Fin 2) * 1024 + 1 * (j 1).val = win0_4.index t (1 : Fin 2) * 1024 + 1 * (j 1).val; omega
  rw [h0, h1]
  rfl

/-- The array after the region. -/
theorem final0_4 (c : Dev nD) : (dat0 V c).arrAt 4 cfg0.N = proj2d (rdX V c) (rdEnt V c) :=
  (dat0 V c).arrAt_eq_of_cover 4 _ (fun t _ => flushed0_4_eq V c t) tiles0_4

/-! ## Output window 5 -/

/-- An index of the array is in point `t`'s block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1_2).slice (win0_5.rect t)).set ↔ _
  rw [View.set_slice_whole, Rect.mem_set_unit]
  exact Iff.rfl

/-- Every row of the array lies in the block of the point that owns its 512-row band. -/
theorem tiles0_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  refine ⟨⟨(i 0).val / 512, by rw [show cfg0.N = 16 from N_0]; omega⟩, flush0_5 _, ?_⟩
  rw [mem_blk0_5]
  obtain ⟨e00, e01, e10, e11, e20, e21, e30, e31, e40, e41, e50, e51⟩ := idx_facts0 ⟨(i 0).val / 512, by rw [show cfg0.N = 16 from N_0]; omega⟩
  intro a
  match a with
  | ⟨0, _⟩ =>
    show win0_5.index _ (0 : Fin 2) * 512 ≤ (i 0).val ∧ (i 0).val < win0_5.index _ (0 : Fin 2) * 512 + 512
    rw [e50]; dsimp only; omega
  | ⟨1, _⟩ =>
    show win0_5.index _ (1 : Fin 2) * 1024 ≤ (i 1).val ∧ (i 1).val < win0_5.index _ (1 : Fin 2) * 1024 + 1024
    rw [e51]; omega

/-- What point `t` writes back is its block of rdX V c. -/
theorem flushed0_5_eq (c : Dev nD) (t : Fin cfg0.N) :
    (dat0 V c).flushed 5 t = ((cfg0.win 5).blk t).view.read (Elt Ideal) (rdX V c) := by
  show (cfg0.win 5).cut (grid0.coords t) ((dat0 V c).after 5 t) = _
  rw [after0_5, out0_5_eq]
  obtain ⟨e00, e01, e10, e11, e20, e21, e30, e31, e40, e41, e50, e51⟩ := idx_facts0 t
  funext j
  refine (pay_copy_apply _ _).trans ?_
  show rdX V c (((cfg0.win 0).blk t).view.emb j) = rdX V c (((cfg0.win 5).blk t).view.emb j)
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * (j 1).val = win0_5.index t (1 : Fin 2) * 1024 + 1 * (j 1).val; omega
  rw [h0]

/-- The array after the region. -/
theorem final0_5 (c : Dev nD) : (dat0 V c).arrAt 5 cfg0.N = rdX V c :=
  (dat0 V c).arrAt_eq_of_cover 5 _ (fun t _ => flushed0_5_eq V c t) tiles0_5

end Cert.KernelIdeal.Hand

end
-- ==== Proof.FlashValue.lean ====
/-
  The attention region's values, generic in the float instance.

  Each control case's run found, for every buffer the body stores into, one covering store last; read back, the
  three scratch buffers end with the body's value terms over the point's query, key and value blocks and the
  triple (running maximum, denominator, numerator) the body loaded — the initial triple at a first key block,
  because there the body resets the scratch before it loads it; what the point before left otherwise.  So along
  the key blocks of one query tile the scratch contents are the iterates of one step function, and at the last
  key block the output tile is that step's numerator over its denominator.
-/
import proofs.«154830_j65481071407513_2_alg».proof.Proof.FlashRegion
import Idealize.ShloMosaic.Lib.Pipeline.Value

-- membership in a rectangle of these extents is checked structurally, once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, however many axes. -/
theorem zeros2 : (![0, 0] : Fin 2 → ℕ) = fun _ => 0 := by funext a; fin_cases a <;> rfl
theorem zeros3 : (![0, 0, 0] : Fin 3 → ℕ) = fun _ => 0 := by funext a; fin_cases a <;> rfl

/-- A whole-buffer load from a whole memref handed over at contents `x` reads `x`. -/
theorem readAt_unit_unread {S : Shape} {e : EltTy} (a : Memref sig .tc .vmem S e) (ha : a.IsWhole) {off : Fin S.rank → ℕ}
    (h : off = fun _ => 0) (inb : ∀ k, off k + S.size k ≤ S.size k) (x : S.Idx → Elt F e) :
    View.readAt (Elt F) a.view (Rect.unit off S.size inb).toLoadRect (ha.unread x) = x := by
  rw [View.readAt_eq_ld, ha.read_unread, View.ld_unit_zero h]

/-- Case A: what the running maximum's buffer ends with, as the body's value term over the point's blocks and the initial triple. -/
theorem sout1_A_0_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) :
    sout1_A_0 c i arg3 harg3 arg4 harg4 arg5 harg5 arg6 harg6 arg7 harg7 arg8 harg8 arg9 harg9 hc0 hc1 x0 x1 x2 = k1_pay2 (k1_pay9 x0 x1 (k1_pay4 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case A: what the running denominator's buffer ends with, as the body's value term over the point's blocks and the initial triple. -/
theorem sout1_A_1_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) :
    sout1_A_1 c i arg3 harg3 arg4 harg4 arg5 harg5 arg6 harg6 arg7 harg7 arg8 harg8 arg9 harg9 hc0 hc1 x0 x1 x2 = k1_pay12 x0 x1 (k1_pay4 (F := F)) (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case A: what the running numerator's buffer ends with, as the body's value term over the point's blocks and the initial triple. -/
theorem sout1_A_2_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : cond1_0 i) (hc1 : ¬cond1_1 i)
    (x0 : Vec F S1x1024x1024 .f32) (x1 : Vec F S1x256x1024 .f32) (x2 : Vec F S1x256x1024 .bf16) :
    sout1_A_2 c i arg3 harg3 arg4 harg4 arg5 harg5 arg6 harg6 arg7 harg7 arg8 harg8 arg9 harg9 hc0 hc1 x0 x1 x2 = k1_pay1 (k1_pay7 x2) (k1_pay10 x0 x1 (k1_pay4 (F := F)) (k1_pay4 (F := F))) (k1_pay11 x0 x1 (k1_pay4 (F := F))) (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case B: what the running maximum's buffer ends with, as the body's value term over the point's blocks and the triple the point before left. -/
theorem sout1_B_0_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case B: what the running denominator's buffer ends with, as the body's value term over the point's blocks and the triple the point before left. -/
theorem sout1_B_1_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case B: what the running numerator's buffer ends with, as the body's value term over the point's blocks and the triple the point before left. -/
theorem sout1_B_2_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : ¬cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case C: what the running maximum's buffer ends with, as the body's value term over the point's blocks and the triple the point before left. -/
theorem sout1_C_0_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 hc0 hc1 x0 x1 x2 xs0 xs1 xs2 = k1_pay2 (k1_pay9 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case C: what the running denominator's buffer ends with, as the body's value term over the point's blocks and the triple the point before left. -/
theorem sout1_C_1_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 hc0 hc1 x0 x1 x2 xs0 xs1 xs2 = k1_pay12 x0 x1 xs0 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case C: what the running numerator's buffer ends with, as the body's value term over the point's blocks and the triple the point before left. -/
theorem sout1_C_2_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 hc0 hc1 x0 x1 x2 xs0 xs1 xs2 = k1_pay1 (k1_pay7 x2) (k1_pay10 x0 x1 xs0 xs0) (k1_pay11 x0 x1 xs0) xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

/-- Case C: the output tile is the updated numerator over the updated denominator. -/
theorem out1_C_3_eq (c : Dev nD) (i : grid1.Coords)
    (arg3 : Memref sig .tc .vmem S1x1024x1024 .f32) (harg3 : arg3.IsWhole) (arg4 : Memref sig .tc .vmem S1x256x1024 .f32) (harg4 : arg4.IsWhole)
    (arg5 : Memref sig .tc .vmem S1x256x1024 .bf16) (harg5 : arg5.IsWhole) (arg6 : Memref sig .tc .vmem S1x1024x1024 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x1024 .f32) (harg9 : arg9.IsWhole) (hc0 : ¬cond1_0 i) (hc1 : cond1_1 i)
    (x0 : Vec F S1x1024x1024 .f32) (x1 : Vec F S1x256x1024 .f32) (x2 : Vec F S1x256x1024 .bf16) (xs0 : Vec F S1024x1 .f32) (xs1 : Vec F S1024x1 .f32) (xs2 : Vec F S1024x1024 .f32) :
    out1_C_3 c i arg3 harg3 arg4 harg4 arg5 harg5 arg6 harg6 arg7 harg7 arg8 harg8 arg9 harg9 hc0 hc1 x0 x1 x2 xs0 xs1 xs2 = k1_pay3 (k1_pay1 (k1_pay7 x2) (k1_pay10 x0 x1 xs0 xs0) (k1_pay11 x0 x1 xs0) xs2) (k1_pay12 x0 x1 xs0 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  simp only [View.canon_cons_unit_zero (S := S1024x1) zeros2, View.canon_cons_unit_zero (S := S1024x1024) zeros2,
    View.canon_cons_unit_zero (S := S1x1024x1024) zeros3,
    View.readCov_unit_zero (S := S1024x1) _ zeros2, View.readCov_unit_zero (S := S1024x1024) _ zeros2,
    readAt_unit_unread arg3 harg3 zeros3, readAt_unit_unread arg4 harg4 zeros3, readAt_unit_unread arg5 harg5 zeros3,
    readAt_unit_unread arg7 harg7 zeros2, readAt_unit_unread arg8 harg8 zeros2, readAt_unit_unread arg9 harg9 zeros2]

section Value

-- the TensorCore's buffer contents when the region is entered
variable (V : (c : Dev nD) → (b : Ref sig .tc) → Buf (Elt F) ((c : Thread nD τ).loc b))

/-- What the three scratch buffers (running maximum, denominator, numerator) hold after the body at position `n`. -/
def scr1 (c : Dev nD) (n : ℕ) (hn : n < cfg1.N) : Triple F := (outsAt1 V c n hn).2

/-- At a first key block the scratch ends at one step from the initial triple, whatever it held before. -/
theorem scr1_first (c : Dev nD) (t : Fin cfg1.N) (h : t.val % 8 = 0) :
    scr1 V c t.val t.isLt = tripleStep (iblk1 V c 0 t) (iblk1 V c 1 t) (iblk1 V c 2 t) tripleInit := by
  unfold scr1
  rw [outsAt1_A V c t h (by omega)]
  unfold ptA
  dsimp only
  rw [sout1_A_0_eq, sout1_A_1_eq, sout1_A_2_eq]
  rfl

/-- At any later key block it ends at one step from what the point before left. -/
theorem scr1_next (c : Dev nD) (t : Fin cfg1.N) (h : t.val % 8 ≠ 0) :
    scr1 V c t.val t.isLt = tripleStep (iblk1 V c 0 t) (iblk1 V c 1 t) (iblk1 V c 2 t) (scr1 V c (t.val - 1) (by omega)) := by
  unfold scr1
  by_cases h1 : t.val % 8 = 7
  · rw [outsAt1_C V c t h h1]
    unfold ptC
    dsimp only
    rw [sout1_C_0_eq, sout1_C_1_eq, sout1_C_2_eq]
    rfl
  · rw [outsAt1_B V c t h h1]
    unfold ptB
    dsimp only
    rw [sout1_B_0_eq, sout1_B_1_eq, sout1_B_2_eq]
    rfl

/-- At a last key block the output window's buffer ends at the output tile of the triple just stored. -/
theorem out1_last (c : Dev nD) (t : Fin cfg1.N) (h : t.val % 8 = 7) :
    (dat1 V c).after 3 t = tripleOut (scr1 V c t.val t.isLt) := by
  unfold scr1
  rw [after1_3, outsAt1_C V c t (by omega) h]
  unfold ptC
  dsimp only
  rw [out1_C_3_eq, sout1_C_1_eq, sout1_C_2_eq]
  rfl

end Value

end Cert.KernelIdeal.Hand

end
-- ==== Proof.AttnSpec.lean ====
/-
  What both programs compute, as one function of the three argument arrays on the extended reals.

  With x of shape [4, 2048, 1024] and two [1024, 1024] matrices, the queries and keys are the projections
      Q(b, s, e) = sum_d x(b, s, d) * rot(d, e),      K(b, s, e) = sum_d x(b, s, d) * ent(d, e),
  the scaled score of query `q` against key `k` in batch `b` is (sum_e Q(b, q, e) * K(b, k, e)) * cs, and the result at
  (b, q, d) is the softmax-weighted sum over the keys of the values x(b, k, d) (`Cert.Attn.direct`).
-/
import proofs.«154830_j65481071407513_2_alg».proof.Proof.LibOnlineSoftmax
import Idealize.ShloMosaic.Lib.ValueIdx

noncomputable section

namespace Cert.Attn

open Idealize.ShloMosaic Idealize.ShloMosaic.ValueIdx
open scoped BigOperators

/-- The shape of x, of the queries, keys and of the result. -/
abbrev SX : Shape := ⟨3, ![4, 2048, 1024]⟩
/-- The shape of the two projection matrices. -/
abbrev SW : Shape := ⟨2, ![1024, 1024]⟩

/-- A projection of x by a matrix, batch by batch and row by row. -/
def projA (X : SX.Idx → EReal) (W : SW.Idx → EReal) : SX.Idx → EReal := fun i =>
  ∑ d : Fin 1024, X (ix3 (i 0) (i 1) d) * W (ix2 d (i 2))

/-- The scaled score of query row `q` against key row `k` of batch `b`. -/
def score (Q K : SX.Idx → EReal) (cs : EReal) (b : Fin 4) (q k : Fin 2048) : EReal :=
  (∑ e : Fin 1024, Q (ix3 b q e) * K (ix3 b k e)) * cs

/-- Attention of given queries, keys and values with the scale `cs`. -/
def attn (Q K V : SX.Idx → EReal) (cs : EReal) : SX.Idx → EReal := fun i =>
  direct (fun k : Fin 2048 => score Q K cs (i 0) (i 1) k) (fun k : Fin 2048 => V (ix3 (i 0) k (i 2)))

/-- The whole computation: project, then attend over x itself. -/
def G (X : SX.Idx → EReal) (Rot Ent : SW.Idx → EReal) (cs : EReal) : SX.Idx → EReal :=
  attn (projA X Rot) (projA X Ent) X cs

end Cert.Attn

end
-- ==== Proof.AttnTile.lean ====
/-
  One query tile against its eight key blocks.

  A query tile (batch b, tile qi) meets its eight key blocks at eight consecutive grid points.  Row `r` of the running
  triple after the `j`-th of them is the online-softmax triple of that row's scaled scores against the first
  `256 (j + 1)` keys: an induction over the key blocks, one online step per point.  At the last block numerator over
  denominator is, for real queries, keys and values, the attention entry of that row.
-/
import proofs.«154830_j65481071407513_2_alg».proof.Proof.StepAtIndex
import proofs.«154830_j65481071407513_2_alg».proof.Proof.AttnSpec
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)
open Cert.Attn

/-- The scale as the body spells it. -/
abbrev csK : EReal := Ideal.ofBits .f32 0x3D000000#32

/-! ## A point's coordinates -/

/-- The batch of the point at position `t`. -/
def bOf (t : ℕ) : Fin 4 := ⟨(t / 16) % 4, Nat.mod_lt _ (by decide)⟩
/-- The query row, in its batch, of row `r` of the tile of the point at position `t`. -/
def qOf (t : ℕ) (r : Fin 1024) : Fin 2048 := ⟨(1024 * ((t / 8) % 2) + r.val) % 2048, Nat.mod_lt _ (by decide)⟩
/-- The key row, in its batch, of row `c` of key block `j`. -/
def kOf (j : ℕ) (c : Fin 256) : Fin 2048 := ⟨(256 * j + c.val) % 2048, Nat.mod_lt _ (by decide)⟩

theorem bOf_tile (T j : ℕ) (hj : j < 8) : bOf (8 * T + j) = bOf (8 * T) :=
  Fin.ext (by show ((8 * T + j) / 16) % 4 = ((8 * T) / 16) % 4; omega)
theorem qOf_tile (T j : ℕ) (hj : j < 8) (r : Fin 1024) : qOf (8 * T + j) r = qOf (8 * T) r :=
  Fin.ext (by show (1024 * (((8 * T + j) / 8) % 2) + r.val) % 2048 = (1024 * (((8 * T) / 8) % 2) + r.val) % 2048; omega)
theorem mod_tile (T j : ℕ) (hj : j < 8) : (8 * T + j) % 8 = j := by omega

/-! ## The induction over a tile's key blocks -/

section Tile

variable {N : ℕ} (S : (n : ℕ) → n < N → Triple Ideal)
  (qb : Fin N → Vec Ideal S1x1024x1024 .f32) (kb : Fin N → Vec Ideal S1x256x1024 .f32) (vb : Fin N → Vec Ideal S1x256x1024 .bf16)
  (Qa Ka Va : SX.Idx → EReal)

/-- A block's scaled scores are the arrays' scores at the point's coordinates. -/
theorem blkScore_eq (t : Fin N)
    (hq : ∀ (r e : Fin 1024), qb t (ix3 (0 : Fin 1) r e) = Qa (ix3 (bOf t.val) (qOf t.val r) e))
    (hk : ∀ (c : Fin 256) (e : Fin 1024), kb t (ix3 (0 : Fin 1) c e) = Ka (ix3 (bOf t.val) (kOf (t.val % 8) c) e))
    (r : Fin 1024) (c : Fin 256) :
    blkScore (qb t) (kb t) r c = score Qa Ka csK (bOf t.val) (qOf t.val r) (kOf (t.val % 8) c) := by
  unfold blkScore score
  congr 1
  apply Finset.sum_congr rfl
  intro e _
  rw [hq, hk]

/-- Row `r` of the running triple after key block `j` of tile `T`: the online triple of the row's scores and the value
    column over the first `j + 1` key blocks. -/
theorem tile_online (hN : N = 64)
    (hfirst : ∀ t : Fin N, t.val % 8 = 0 → S t.val t.isLt = tripleStep (qb t) (kb t) (vb t) tripleInit)
    (hnext : ∀ (t : Fin N) (h : t.val % 8 ≠ 0), S t.val t.isLt = tripleStep (qb t) (kb t) (vb t) (S (t.val - 1) (by omega)))
    (hq : ∀ (t : Fin N) (r e : Fin 1024), qb t (ix3 (0 : Fin 1) r e) = Qa (ix3 (bOf t.val) (qOf t.val r) e))
    (hk : ∀ (t : Fin N) (c : Fin 256) (e : Fin 1024), kb t (ix3 (0 : Fin 1) c e) = Ka (ix3 (bOf t.val) (kOf (t.val % 8) c) e))
    (hv : ∀ (t : Fin N) (c : Fin 256) (d : Fin 1024), vb t (ix3 (0 : Fin 1) c d) = Va (ix3 (bOf t.val) (kOf (t.val % 8) c) d))
    (T : ℕ) (hT : T < 8) (r d : Fin 1024) :
    ∀ (j : ℕ) (hj : j < 8), tripleAt (S (8 * T + j) (by omega)) r d
      = online (fun j' c => score Qa Ka csK (bOf (8 * T)) (qOf (8 * T) r) (kOf j' c))
          (fun j' c => Va (ix3 (bOf (8 * T)) (kOf j' c) d)) (j + 1) := by
  intro j
  induction j with
  | zero =>
    intro _
    have ht : (8 * T + 0) < N := by omega
    have h := hfirst ⟨8 * T + 0, ht⟩ (by show (8 * T + 0) % 8 = 0; omega)
    show tripleAt (S (8 * T + 0) ht) r d = Cert.Attn.step _ _ (⊥, 0, 0)
    rw [h, tripleStep_at, tripleInit_at]
    congr 1
    · funext c
      rw [blkScore_eq qb kb Qa Ka ⟨8 * T + 0, ht⟩ (hq _) (hk _) r c]
      show score Qa Ka csK (bOf (8 * T + 0)) (qOf (8 * T + 0) r) (kOf ((8 * T + 0) % 8) c) = _
      rw [bOf_tile T 0 (by omega), qOf_tile T 0 (by omega), mod_tile T 0 (by omega)]
    · funext c
      rw [hv]
      show Va (ix3 (bOf (8 * T + 0)) (kOf ((8 * T + 0) % 8) c) d) = _
      rw [bOf_tile T 0 (by omega), mod_tile T 0 (by omega)]
  | succ j ih =>
    intro hj
    have ht : (8 * T + (j + 1)) < N := by omega
    have h := hnext ⟨8 * T + (j + 1), ht⟩ (by show (8 * T + (j + 1)) % 8 ≠ 0; omega)
    have hprev : S ((8 * T + (j + 1)) - 1) (by omega) = S (8 * T + j) (by omega) := rfl
    show tripleAt (S (8 * T + (j + 1)) ht) r d = Cert.Attn.step _ _ (online _ _ (j + 1))
    rw [h, tripleStep_at]
    show Cert.Attn.step _ _ (tripleAt (S ((8 * T + (j + 1)) - 1) (by omega)) r d) = _
    rw [hprev, ih (by omega)]
    congr 1
    · funext c
      rw [blkScore_eq qb kb Qa Ka ⟨8 * T + (j + 1), ht⟩ (hq _) (hk _) r c]
      show score Qa Ka csK (bOf (8 * T + (j + 1))) (qOf (8 * T + (j + 1)) r) (kOf ((8 * T + (j + 1)) % 8) c) = _
      rw [bOf_tile T (j + 1) hj, qOf_tile T (j + 1) hj, mod_tile T (j + 1) hj]
    · funext c
      rw [hv]
      show Va (ix3 (bOf (8 * T + (j + 1))) (kOf ((8 * T + (j + 1)) % 8) c) d) = _
      rw [bOf_tile T (j + 1) hj, mod_tile T (j + 1) hj]

end Tile

/-! ## Real entries -/

/-- The pairs (key block, position) enumerate the 2048 keys of a batch. -/
def keyEquiv : Fin (7 + 1) × Fin 256 ≃ Fin 2048 :=
  (finProdFinEquiv : Fin 8 × Fin 256 ≃ Fin (8 * 256))

theorem keyEquiv_val (p : Fin (7 + 1) × Fin 256) : (keyEquiv p).val = p.2.val + 256 * p.1.val := rfl

theorem kOf_key (p : Fin (7 + 1) × Fin 256) : kOf p.1.val p.2 = keyEquiv p :=
  Fin.ext (by
    have h1 := p.1.isLt
    have h2 := p.2.isLt
    show (256 * p.1.val + p.2.val) % 2048 = p.2.val + 256 * p.1.val
    omega)

/-- With real queries, keys and values, the last triple of a tile's row gives the attention entry. -/
theorem online_last (Qa Ka Va : SX.Idx → EReal)
    (hQ : ∀ i, ∃ a : ℝ, Qa i = (a : EReal)) (hK : ∀ i, ∃ a : ℝ, Ka i = (a : EReal)) (hV : ∀ i, ∃ a : ℝ, Va i = (a : EReal))
    (b : Fin 4) (q : Fin 2048) (d : Fin 1024) :
    Ideal.div (online (fun j' c => score Qa Ka csK b q (kOf j' c)) (fun j' c => Va (ix3 b (kOf j' c) d)) (7 + 1)).2.2
        (online (fun j' c => score Qa Ka csK b q (kOf j' c)) (fun j' c => Va (ix3 b (kOf j' c) d)) (7 + 1)).2.1
      = attn Qa Ka Va csK (ix3 b q d) := by
  choose Qr hQr using hQ
  choose Kr hKr using hK
  choose Vr hVr using hV
  -- the real scores and values
  have hs : ∀ k : Fin 2048, score Qa Ka csK b q k = (((∑ e : Fin 1024, Qr (ix3 b q e) * Kr (ix3 b k e)) * (1 / 32) : ℝ) : EReal) := fun k => by
    unfold score
    rw [show csK = ((1 / 32 : ℝ) : EReal) from scale_word, EReal.coe_mul, coe_sum]
    congr 1
    apply Finset.sum_congr rfl
    intro e _
    rw [hQr, hKr, EReal.coe_mul]
  have e1 : (fun (j' : ℕ) (c : Fin 256) => score Qa Ka csK b q (kOf j' c))
      = fun j' c => (((fun (j' : ℕ) (c : Fin 256) => (∑ e : Fin 1024, Qr (ix3 b q e) * Kr (ix3 b (kOf j' c) e)) * (1 / 32)) j' c : ℝ) : EReal) :=
    funext fun j' => funext fun c => hs (kOf j' c)
  have e2 : (fun (j' : ℕ) (c : Fin 256) => Va (ix3 b (kOf j' c) d))
      = fun j' c => (((fun (j' : ℕ) (c : Fin 256) => Vr (ix3 b (kOf j' c) d)) j' c : ℝ) : EReal) :=
    funext fun j' => funext fun c => hVr _
  rw [e1, e2]
  rw [online_eq_direct 7 _ _ (fun k : Fin 2048 => (∑ e : Fin 1024, Qr (ix3 b q e) * Kr (ix3 b k e)) * (1 / 32))
    (fun k : Fin 2048 => Vr (ix3 b k d)) keyEquiv
    (fun p => by show _ = (∑ e : Fin 1024, Qr (ix3 b q e) * Kr (ix3 b (kOf p.1.val p.2) e)) * (1 / 32); rw [kOf_key])
    (fun p => by show _ = Vr (ix3 b (kOf p.1.val p.2) d); rw [kOf_key])]
  unfold attn
  congr 1
  · funext k
    exact (hs k).symm
  · funext k
    exact (hVr _).symm

end Cert.KernelIdeal.Hand

end
-- ==== Proof.AttnBlocks.lean ====
/-
  The attention region's blocks read off the arrays it finds.

  The grid point at position `t` works on batch `t / 16`, query tile `(t / 8) % 2` and key block `t % 8`: its query block
  is rows 1024 qi … of the queries of that batch, its key and value blocks rows 256 ki … of the keys and values; its
  output block is the query tile's.  The output tiles written back at the last key blocks tile the output array.
-/
import proofs.«154830_j65481071407513_2_alg».proof.Proof.FlashRuns
import proofs.«154830_j65481071407513_2_alg».proof.Proof.AttnTile
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)
open Cert.Attn

variable (V : (c : Dev nD) → (b : Ref sig .tc) → Buf (Elt Ideal) ((c : Thread nD τ).loc b))

/-- The three arrays the region reads — queries, keys, values — as arrays of extended reals. -/
abbrev arrQ (c : Dev nD) : SX.Idx → EReal := V c main_v2
abbrev arrK (c : Dev nD) : SX.Idx → EReal := V c main_v3
abbrev arrV (c : Dev nD) : SX.Idx → EReal := V c main_v4

/-- The printed index maps, decided over the 64 points. -/
theorem idx_facts1 : ∀ t : Fin cfg1.N,
    win1_0.index t (0 : Fin 3) = t.val / 16 ∧ win1_0.index t (1 : Fin 3) = (t.val / 8) % 2 ∧ win1_0.index t (2 : Fin 3) = 0
    ∧ win1_1.index t (0 : Fin 3) = t.val / 16 ∧ win1_1.index t (1 : Fin 3) = t.val % 8 ∧ win1_1.index t (2 : Fin 3) = 0
    ∧ win1_2.index t (0 : Fin 3) = t.val / 16 ∧ win1_2.index t (1 : Fin 3) = t.val % 8 ∧ win1_2.index t (2 : Fin 3) = 0
    ∧ win1_3.index t (0 : Fin 3) = t.val / 16 ∧ win1_3.index t (1 : Fin 3) = (t.val / 8) % 2 ∧ win1_3.index t (2 : Fin 3) = 0 :=
  (by decide +kernel : ∀ t : Fin grid1.N, _)

theorem qblk_at (c : Dev nD) (t : Fin cfg1.N) (r e : Fin 1024) :
    iblk1 V c 0 t (ix3 (0 : Fin 1) r e) = arrQ V c (ix3 (bOf t.val) (qOf t.val r) e) := by
  obtain ⟨e00, e01, e02, -⟩ := idx_facts1 t
  have ht : t.val < 64 := lt_of_lt_of_eq t.isLt (show cfg1.N = 64 from N_1)
  show arrQ V c (((cfg1.win 0).blk t).view.emb (ix3 (0 : Fin 1) r e)) = _
  congr 1
  funext a; apply Fin.ext
  match a with
  | ⟨0, _⟩ => show win1_0.index t (0 : Fin 3) * 1 + 1 * 0 = (t.val / 16) % 4; omega
  | ⟨1, _⟩ => show win1_0.index t (1 : Fin 3) * 1024 + 1 * r.val = (1024 * ((t.val / 8) % 2) + r.val) % 2048; have := r.isLt; omega
  | ⟨2, _⟩ => show win1_0.index t (2 : Fin 3) * 1024 + 1 * e.val = e.val; omega

theorem kblk_at (c : Dev nD) (t : Fin cfg1.N) (cc : Fin 256) (e : Fin 1024) :
    iblk1 V c 1 t (ix3 (0 : Fin 1) cc e) = arrK V c (ix3 (bOf t.val) (kOf (t.val % 8) cc) e) := by
  obtain ⟨-, -, -, e10, e11, e12, -⟩ := idx_facts1 t
  have ht : t.val < 64 := lt_of_lt_of_eq t.isLt (show cfg1.N = 64 from N_1)
  show arrK V c (((cfg1.win 1).blk t).view.emb (ix3 (0 : Fin 1) cc e)) = _
  congr 1
  funext a; apply Fin.ext
  match a with
  | ⟨0, _⟩ => show win1_1.index t (0 : Fin 3) * 1 + 1 * 0 = (t.val / 16) % 4; omega
  | ⟨1, _⟩ => show win1_1.index t (1 : Fin 3) * 256 + 1 * cc.val = (256 * (t.val % 8) + cc.val) % 2048; have := cc.isLt; omega
  | ⟨2, _⟩ => show win1_1.index t (2 : Fin 3) * 1024 + 1 * e.val = e.val; omega

theorem vblk_at (c : Dev nD) (t : Fin cfg1.N) (cc : Fin 256) (d : Fin 1024) :
    iblk1 V c 2 t (ix3 (0 : Fin 1) cc d) = arrV V c (ix3 (bOf t.val) (kOf (t.val % 8) cc) d) := by
  obtain ⟨-, -, -, -, -, -, e20, e21, e22, -⟩ := idx_facts1 t
  have ht : t.val < 64 := lt_of_lt_of_eq t.isLt (show cfg1.N = 64 from N_1)
  show arrV V c (((cfg1.win 2).blk t).view.emb (ix3 (0 : Fin 1) cc d)) = _
  congr 1
  funext a; apply Fin.ext
  match a with
  | ⟨0, _⟩ => show win1_2.index t (0 : Fin 3) * 1 + 1 * 0 = (t.val / 16) % 4; omega
  | ⟨1, _⟩ => show win1_2.index t (1 : Fin 3) * 256 + 1 * cc.val = (256 * (t.val % 8) + cc.val) % 2048; have := cc.isLt; omega
  | ⟨2, _⟩ => show win1_2.index t (2 : Fin 3) * 1024 + 1 * d.val = d.val; omega

/-- An index of the array is in point `t`'s output block iff each coordinate is in the block's range on its axis. -/
theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v5).slice (win1_3.rect t)).set ↔ _
  rw [View.set_slice_whole, Rect.mem_set_unit]
  exact Iff.rfl

/-- Every entry of the output lies in the tile written back at its tile's last key block. -/
theorem cover1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hlt : 16 * (i 0).val + 8 * ((i 1).val / 1024) + 7 < cfg1.N := by rw [show cfg1.N = 64 from N_1]; omega
  refine ⟨⟨16 * (i 0).val + 8 * ((i 1).val / 1024) + 7, hlt⟩, (flush1_3 _).mpr (by show (16 * (i 0).val + 8 * ((i 1).val / 1024) + 7) % 8 = 7; omega), ?_⟩
  rw [mem_blk1_3]
  obtain ⟨-, -, -, -, -, -, -, -, -, e30, e31, e32⟩ := idx_facts1 ⟨16 * (i 0).val + 8 * ((i 1).val / 1024) + 7, hlt⟩
  intro a
  match a with
  | ⟨0, _⟩ =>
    show win1_3.index _ (0 : Fin 3) * 1 ≤ (i 0).val ∧ (i 0).val < win1_3.index _ (0 : Fin 3) * 1 + 1
    rw [e30]; dsimp only; omega
  | ⟨1, _⟩ =>
    show win1_3.index _ (1 : Fin 3) * 1024 ≤ (i 1).val ∧ (i 1).val < win1_3.index _ (1 : Fin 3) * 1024 + 1024
    rw [e31]; dsimp only; omega
  | ⟨2, _⟩ =>
    show win1_3.index _ (2 : Fin 3) * 1024 ≤ (i 2).val ∧ (i 2).val < win1_3.index _ (2 : Fin 3) * 1024 + 1024
    rw [e32]; omega

end Cert.KernelIdeal.Hand

end
-- ==== Proof.AttnValue.lean ====
/-
  The attention region's output array as one function of the three arrays it reads: the output tile a query tile's
  last point writes back is numerator over denominator of the running triple, which by the induction over the tile's key
  blocks and the online-softmax law is the attention of the queries, keys and values; the tiles cover the array.
-/
import proofs.«154830_j65481071407513_2_alg».proof.Proof.FlashValue
import proofs.«154830_j65481071407513_2_alg».proof.Proof.AttnBlocks
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)
open Cert.Attn

variable (V : (c : Dev nD) → (b : Ref sig .tc) → Buf (Elt Ideal) ((c : Thread nD τ).loc b))

/-- The output block of a query tile's last point, entry by entry: the attention entry of the tile's batch, the
    row's query and the column. -/
theorem tile_out (c : Dev nD)
    (hQ : ∀ i, ∃ a : ℝ, arrQ V c i = (a : EReal)) (hK : ∀ i, ∃ a : ℝ, arrK V c i = (a : EReal))
    (hV : ∀ i, ∃ a : ℝ, arrV V c i = (a : EReal))
    (t : Fin cfg1.N) (h7 : t.val % 8 = 7) (r d : Fin 1024) :
    tripleOut (scr1 V c t.val t.isLt) (ix3 (0 : Fin 1) r d)
      = attn (arrQ V c) (arrK V c) (arrV V c) csK (ix3 (bOf (8 * (t.val / 8))) (qOf (8 * (t.val / 8)) r) d) := by
  have hN : cfg1.N = 64 := N_1
  have ht : t.val < 64 := lt_of_lt_of_eq t.isLt hN
  rw [tripleOut_at]
  have hT : t.val / 8 < 8 := by omega
  have htv : t.val = 8 * (t.val / 8) + 7 := by omega
  have key := tile_online (N := cfg1.N) (scr1 V c) (fun t => iblk1 V c 0 t) (fun t => iblk1 V c 1 t) (fun t => iblk1 V c 2 t)
    (arrQ V c) (arrK V c) (arrV V c) N_1
    (fun t h => scr1_first V c t h) (fun t h => scr1_next V c t h)
    (fun t r e => qblk_at V c t r e) (fun t cc e => kblk_at V c t cc e) (fun t cc d => vblk_at V c t cc d)
    (t.val / 8) hT r d 7 (by omega)
  have hSg : ∀ (n : ℕ) (hn : n < cfg1.N), n = t.val → scr1 V c t.val t.isLt = scr1 V c n hn := by
    intro n hn e; subst e; rfl
  have hS : scr1 V c t.val t.isLt = scr1 V c (8 * (t.val / 8) + 7) (by omega) := hSg _ _ htv.symm
  rw [hS, key, online_last _ _ _ hQ hK hV]

/-- What a tile's last point writes back is its block of the attention of the three arrays the region reads. -/
theorem flushed1_3_eq (c : Dev nD)
    (hQ : ∀ i, ∃ a : ℝ, arrQ V c i = (a : EReal)) (hK : ∀ i, ∃ a : ℝ, arrK V c i = (a : EReal))
    (hV : ∀ i, ∃ a : ℝ, arrV V c i = (a : EReal))
    (t : Fin cfg1.N) (hf : (cfg1.win 3).flush t = true) :
    (dat1 V c).flushed 3 t = ((cfg1.win 3).blk t).view.read (Elt Ideal) (attn (arrQ V c) (arrK V c) (arrV V c) csK) := by
  have h7 : t.val % 8 = 7 := (flush1_3 t).mp hf
  have ht : t.val < 64 := lt_of_lt_of_eq t.isLt (show cfg1.N = 64 from N_1)
  show (cfg1.win 3).cut (grid1.coords t) ((dat1 V c).after 3 t) = _
  rw [out1_last V c t h7]
  obtain ⟨-, -, -, -, -, -, -, -, -, e30, e31, e32⟩ := idx_facts1 t
  funext j
  have hj0 : (j 0).val < 1 := (j 0).isLt
  have hj1 : (j 1).val < 1024 := (j 1).isLt
  have hj2 : (j 2).val < 1024 := (j 2).isLt
  have hj : j = ix3 (0 : Fin 1) (⟨(j 1).val, hj1⟩ : Fin 1024) (⟨(j 2).val, hj2⟩ : Fin 1024) := funext fun a => by
    match a with
    | ⟨0, _⟩ => exact Fin.ext (by show (j 0).val = 0; omega)
    | ⟨1, _⟩ => rfl
    | ⟨2, _⟩ => rfl
  refine (congrArg (tripleOut (scr1 V c t.val t.isLt)) hj).trans ?_
  refine (tile_out V c hQ hK hV t h7 ⟨(j 1).val, hj1⟩ ⟨(j 2).val, hj2⟩).trans ?_
  show attn (arrQ V c) (arrK V c) (arrV V c) csK _ = attn (arrQ V c) (arrK V c) (arrV V c) csK (((cfg1.win 3).blk t).view.emb j)
  congr 1
  funext a; apply Fin.ext
  match a with
  | ⟨0, _⟩ => show ((8 * (t.val / 8)) / 16) % 4 = win1_3.index t (0 : Fin 3) * 1 + 1 * (j 0).val; omega
  | ⟨1, _⟩ => show (1024 * (((8 * (t.val / 8)) / 8) % 2) + (j 1).val) % 2048 = win1_3.index t (1 : Fin 3) * 1024 + 1 * (j 1).val; omega
  | ⟨2, _⟩ => show (j 2).val = win1_3.index t (2 : Fin 3) * 1024 + 1 * (j 2).val; omega

/-- THE OUTPUT ARRAY after the region: the attention of the three arrays the region reads, provided they are real. -/
theorem final1_3 (c : Dev nD)
    (hQ : ∀ i, ∃ a : ℝ, arrQ V c i = (a : EReal)) (hK : ∀ i, ∃ a : ℝ, arrK V c i = (a : EReal))
    (hV : ∀ i, ∃ a : ℝ, arrV V c i = (a : EReal)) :
    (dat1 V c).arrAt 3 cfg1.N = attn (arrQ V c) (arrK V c) (arrV V c) csK :=
  (dat1 V c).arrAt_eq_of_cover 3 _ (fun t hf => flushed1_3_eq V c hQ hK hV t hf) cover1_3

end Cert.KernelIdeal.Hand

end
-- ==== Proof.Reshapes.lean ====
/- The program's two reshapes read at an index. Merging the two leading axes of a [4, 2048, 1024] array into
   one of 8192 sends entry (b, s, d) to row `2048 · b + s`, column `d`; splitting the axis back is the inverse.
   Both keep the row-major position `(2048 · b + s) · 1024 + d`. -/
import proofs.«154830_j65481071407513_2_alg».proof.Proof.Gen.KernelIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- The merged array at row `2048 · b + s`, column `d` is the original at `(b, s, d)`. -/
theorem reshape_flat_apply {α : Type} (x : S4x2048x1024.Idx → α) (b : Fin 4) (s : Fin 2048) (d : Fin 1024)
    (hrow : 2048 * b.val + s.val < 8192) :
    shapeCast S8192x1024 x shapeCasts_S4x2048x1024_S8192x1024 (ix2 ⟨2048 * b.val + s.val, hrow⟩ d) = x (ix3 b s d) := by
  refine shapeCast_apply x shapeCasts_S4x2048x1024_S8192x1024 (ix2 ⟨2048 * b.val + s.val, hrow⟩ d) (ix3 b s d) ?_
  rw [Shape.rowMajor_val_three, Shape.rowMajor_val_two]
  show (b.val * 2048 + s.val) * 1024 + d.val = (2048 * b.val + s.val) * 1024 + d.val
  omega

/-- The split array at `(b, s, e)` is the flat one at row `2048 · b + s`, column `e`. -/
theorem reshape_unflat_apply {α : Type} (y : S8192x1024.Idx → α) (b : Fin 4) (s : Fin 2048) (e : Fin 1024)
    (hrow : 2048 * b.val + s.val < 8192) :
    shapeCast S4x2048x1024 y shapeCasts_S8192x1024_S4x2048x1024 (ix3 b s e) = y (ix2 ⟨2048 * b.val + s.val, hrow⟩ e) := by
  refine shapeCast_apply y shapeCasts_S8192x1024_S4x2048x1024 (ix3 b s e) (ix2 ⟨2048 * b.val + s.val, hrow⟩ e) ?_
  rw [Shape.rowMajor_val_three, Shape.rowMajor_val_two]
  show (2048 * b.val + s.val) * 1024 + e.val = (b.val * 2048 + s.val) * 1024 + e.val
  omega

end Cert.KernelIdeal.Hand

end
-- ==== Proof.KernelValue.lean ====
/-
  The idealized kernel's result as the specification of its three arguments.

  The program flattens x to 8192 rows, projects the rows by the two matrices in the first region (queries, keys) and
  copies them (values), splits the 8192 rows back into 4 batches of 2048, and attends in the second region.  Read
  through the two reshapes — row 2048 b + s of the flat arrays is row s of batch b — the queries and keys the second
  region finds are the projections of x and the values are x itself, so its output is `Cert.Attn.G` of the arguments
  with the body's scale; the entries have to be real for the second region's law, which they are when the arguments are.
-/
import proofs.«154830_j65481071407513_2_alg».proof.Proof.Assembly
import proofs.«154830_j65481071407513_2_alg».proof.Proof.ProjValue
import proofs.«154830_j65481071407513_2_alg».proof.Proof.AttnValue
import proofs.«154830_j65481071407513_2_alg».proof.Proof.Reshapes

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Cert.Attn

/-- A projection of real arrays is real. -/
theorem projA_real (X : SX.Idx → EReal) (W : SW.Idx → EReal)
    (hX : ∀ i, ∃ a : ℝ, X i = (a : EReal)) (hW : ∀ i, ∃ a : ℝ, W i = (a : EReal)) :
    ∀ i, ∃ a : ℝ, projA X W i = (a : EReal) := by
  choose Xr hXr using hX
  choose Wr hWr using hW
  intro i
  refine ⟨∑ d : Fin 1024, Xr (ix3 (i 0) (i 1) d) * Wr (ix2 d (i 2)), ?_⟩
  unfold projA
  rw [Cert.Attn.coe_sum]
  apply Finset.sum_congr rfl
  intro d _
  rw [hXr, hWr, EReal.coe_mul]

variable (m : (ℓ : Loc nD τ sig) → Buf (Elt Ideal) ℓ) (ρ : Dev nD → PrngReg)

/-- The three arguments as arrays of extended reals. -/
abbrev argX (c : Dev nD) : SX.Idx → EReal := m ((c : Thread nD τ).loc main_arg0)
abbrev argRot (c : Dev nD) : SW.Idx → EReal := m ((c : Thread nD τ).loc main_arg1)
abbrev argEnt (c : Dev nD) : SW.Idx → EReal := m ((c : Thread nD τ).loc main_arg2)

theorem row_lt (b : Fin 4) (s : Fin 2048) : 2048 * b.val + s.val < 8192 := by
  have := b.isLt; have := s.isLt; omega

/-- Row `2048 b + s` of the flattened x is row `s` of batch `b`. -/
theorem rdX_at (c : Dev nD) (b : Fin 4) (s : Fin 2048) (d : Fin 1024) :
    rdX (V1 m ρ) c (ix2 ⟨2048 * b.val + s.val, row_lt b s⟩ d) = argX m c (ix3 b s d) := by
  show V1 m ρ c main_v0 (ix2 ⟨2048 * b.val + s.val, row_lt b s⟩ d) = _
  rw [V1_main_v0]
  exact reshape_flat_apply _ b s d (row_lt b s)

theorem rdRot_eq (c : Dev nD) : rdRot (V1 m ρ) c = argRot m c := V1_main_arg1 m ρ c
theorem rdEnt_eq (c : Dev nD) : rdEnt (V1 m ρ) c = argEnt m c := V1_main_arg2 m ρ c

/-- A flat product split back into batches is the projection of x. -/
theorem unflat_proj (c : Dev nD) (W : SW.Idx → EReal) (b : Fin 4) (s : Fin 2048) (e : Fin 1024) :
    proj2d (rdX (V1 m ρ) c) W (ix2 ⟨2048 * b.val + s.val, row_lt b s⟩ e) = projA (argX m c) W (ix3 b s e) := by
  unfold proj2d projA
  apply Finset.sum_congr rfl
  intro d _
  show rdX (V1 m ρ) c (ix2 ⟨2048 * b.val + s.val, row_lt b s⟩ d) * W (ix2 d e) = argX m c (ix3 b s d) * W (ix2 d e)
  rw [rdX_at]

/-- The queries the second region finds are x projected by the first matrix. -/
theorem arrQ_eq (c : Dev nD) : arrQ (V3 m ρ) c = projA (argX m c) (argRot m c) := by
  funext i
  obtain ⟨b, s, e, rfl⟩ : ∃ (b : Fin 4) (s : Fin 2048) (e : Fin 1024), i = ix3 b s e := ⟨i 0, i 1, i 2, eq_ix3 i⟩
  show V3 m ρ c main_v2 (ix3 b s e) = _
  rw [V3_main_v2, final0_3]
  refine (reshape_unflat_apply _ b s e (row_lt b s)).trans ?_
  rw [rdRot_eq]
  exact unflat_proj m ρ c _ b s e

/-- The keys: x projected by the second matrix. -/
theorem arrK_eq (c : Dev nD) : arrK (V3 m ρ) c = projA (argX m c) (argEnt m c) := by
  funext i
  obtain ⟨b, s, e, rfl⟩ : ∃ (b : Fin 4) (s : Fin 2048) (e : Fin 1024), i = ix3 b s e := ⟨i 0, i 1, i 2, eq_ix3 i⟩
  show V3 m ρ c main_v3 (ix3 b s e) = _
  rw [V3_main_v3, final0_4]
  refine (reshape_unflat_apply _ b s e (row_lt b s)).trans ?_
  rw [rdEnt_eq]
  exact unflat_proj m ρ c _ b s e

/-- The values: x itself. -/
theorem arrV_eq (c : Dev nD) : arrV (V3 m ρ) c = argX m c := by
  funext i
  obtain ⟨b, s, e, rfl⟩ : ∃ (b : Fin 4) (s : Fin 2048) (e : Fin 1024), i = ix3 b s e := ⟨i 0, i 1, i 2, eq_ix3 i⟩
  show V3 m ρ c main_v4 (ix3 b s e) = _
  rw [V3_main_v4, final0_5]
  refine (reshape_unflat_apply _ b s e (row_lt b s)).trans ?_
  exact rdX_at m ρ c b s e

/-- THE RESULT: what the program leaves in its result buffer is the specification of its arguments. -/
theorem result_eq (c : Dev nD)
    (hX : ∀ i, ∃ a : ℝ, argX m c i = (a : EReal)) (hR : ∀ i, ∃ a : ℝ, argRot m c i = (a : EReal))
    (hE : ∀ i, ∃ a : ℝ, argEnt m c i = (a : EReal)) :
    W4 m ρ c (Proc.devRef .tc main_v5) = G (argX m c) (argRot m c) (argEnt m c) csK := by
  rw [W4_main_v5]
  have hq := arrQ_eq m ρ c
  have hk := arrK_eq m ρ c
  have hv := arrV_eq m ρ c
  rw [final1_3 (V3 m ρ) c (by rw [hq]; exact projA_real _ _ hX hR) (by rw [hk]; exact projA_real _ _ hX hE)
    (by rw [hv]; exact hX)]
  rw [hq, hk, hv]
  rfl

/-- The idealized kernel's run with its result named. -/
theorem kernel_run
    (hX : ∀ c i, ∃ a : ℝ, argX m c i = (a : EReal)) (hR : ∀ c i, ∃ a : ℝ, argRot m c i = (a : EReal))
    (hE : ∀ c i, ∃ a : ℝ, argEnt m c i = (a : EReal)) :
    θ_run defs (onTc (τ := τ) (main (F := Ideal))) ⟨m, fun _ => 0, ρ⟩ (fun r => ∀ c : Dev nD,
        r.2.mem ((c.tc : Thread nD τ).loc main_v5) = G (argX m c) (argRot m c) (argEnt m c) csK
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c (hX c) (hR c) (hE c)), (h c).2⟩)
    (run (F := Ideal) m ρ)

end Cert.KernelIdeal.Hand

end
-- ==== Proof.RefIsSpec.lean ====
/-
  The reference program computes the specification.

  Its operations, read one at a time at an index: two projections, the scale 1 / sqrt 1024 computed on the host, the
  scores, the row maximum (a fold of `max` from -inf, met once more with a -inf row, which changes nothing), the
  exponentials of the shifted scores, their row sums from 0, the quotients, and the weighted sum of the rows of x.
  That is `Cert.Attn.G` with the scale 1 / sqrt 1024 entry by entry; nothing about the entries being finite is used.
-/
import proofs.«154830_j65481071407513_2_alg».proof.Proof.AttnSpec
import proofs.«154830_j65481071407513_2_alg».proof.Proof.Gen.ReferenceIdeal.Read
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Gen
open Cert.ReferenceIdeal.Read Cert.Attn

/-- The reference's scale: one over the square root of 1024, both as binary32 words. -/
def csRef : EReal := Ideal.div (Ideal.ofBits .f32 0x3F800000#32) (Ideal.sqrt (Ideal.ofBits .f32 0x44800000#32))

theorem negInf_word : Ideal.ofBits .f32 0xFF800000#32 = (⊥ : EReal) := by simp [Ideal.ofBits, Ideal.ieee]

variable (x0 : (⟨S4x2048x1024, .f32⟩ : BufTy).Contents (Elt Ideal)) (x1 x2 : (⟨S1024x1024, .f32⟩ : BufTy).Contents (Elt Ideal))

theorem v0_at (b : Fin 4) (s : Fin 2048) (e : Fin 1024) :
    val_main_v0 (F := Ideal) x0 x1 (ix3 b s e) = projA x0 x1 (ix3 b s e) := by
  rw [val_main_v0_apply]
  unfold projA
  apply Finset.sum_congr rfl
  intro d _
  have hl : lidx_main_v0 (ix3 b s e) d = ix3 b s d := funext fun a => by
    match a with
    | ⟨0, _⟩ => rfl
    | ⟨1, _⟩ => rfl
    | ⟨2, _⟩ => rfl
  have hr : ridx_main_v0 (ix3 b s e) d = ix2 d e := funext fun a => by
    match a with
    | ⟨0, _⟩ => rfl
    | ⟨1, _⟩ => rfl
  rw [hl, hr]

theorem v1_at (b : Fin 4) (s : Fin 2048) (e : Fin 1024) :
    val_main_v1 (F := Ideal) x0 x2 (ix3 b s e) = projA x0 x2 (ix3 b s e) := by
  rw [val_main_v1_apply]
  unfold projA
  apply Finset.sum_congr rfl
  intro d _
  have hl : lidx_main_v1 (ix3 b s e) d = ix3 b s d := funext fun a => by
    match a with
    | ⟨0, _⟩ => rfl
    | ⟨1, _⟩ => rfl
    | ⟨2, _⟩ => rfl
  have hr : ridx_main_v1 (ix3 b s e) d = ix2 d e := funext fun a => by
    match a with
    | ⟨0, _⟩ => rfl
    | ⟨1, _⟩ => rfl
  rw [hl, hr]

/-- The scaled scores. -/
theorem v6_at (b : Fin 4) (q k : Fin 2048) :
    val_main_v6 (F := Ideal) x0 x1 x2 (ix3 b q k) = score (projA x0 x1) (projA x0 x2) csRef b q k := by
  rw [val_main_v6_apply]
  change val_main_v4 (F := Ideal) x0 x1 x2 (ix3 b q k) * val_main_v5 (F := Ideal) (ix3 b q k) = _
  rw [val_main_v4_apply, val_main_v5_apply]
  unfold score
  congr 1
  apply Finset.sum_congr rfl
  intro e _
  have hl : lidx_main_v4 (ix3 b q k) e = ix3 b q e := funext fun a => by
    match a with
    | ⟨0, _⟩ => rfl
    | ⟨1, _⟩ => rfl
    | ⟨2, _⟩ => rfl
  have hr : ridx_main_v4 (ix3 b q k) e = ix3 b k e := funext fun a => by
    match a with
    | ⟨0, _⟩ => rfl
    | ⟨1, _⟩ => rfl
    | ⟨2, _⟩ => rfl
  rw [hl, hr, v0_at, v1_at]

/-- The row maximum. -/
theorem v9_at (b : Fin 4) (q : Fin 2048) :
    val_main_v9 (F := Ideal) x0 x1 x2 (ix2 b q)
      = Finset.univ.fold max (⊥ : EReal) (fun k : Fin 2048 => score (projA x0 x1) (projA x0 x2) csRef b q k) := by
  rw [val_main_v9_apply, val_main_v8_apply]
  change max (Ideal.ofBits .f32 0xFF800000#32) (val_main_v7 (F := Ideal) x0 x1 x2 (ix2 b q)) = _
  rw [negInf_word, max_bot_left]
  unfold val_main_v7
  have hred : S4x2048x2048.Reduces [2] S4x2048 := by decide
  refine (Host.reduce_eq_fold_single FloatOps.maximumf _ _ reducesTo_S4x2048x2048_S4x2048_d2 hred h_S_ (ix2 b q)).trans ?_
  change Finset.univ.fold max (Ideal.ofBits .f32 0xFF800000#32) _ = _
  rw [negInf_word]
  congr 1
  funext k
  have hl : hred.lift (ix2 b q) k = ix3 b q (k : Fin 2048) := funext fun a => Fin.ext (by
    match a with
    | ⟨0, _⟩ => rfl
    | ⟨1, _⟩ => rfl
    | ⟨2, _⟩ => rfl)
  exact (congrArg (val_main_v6 (F := Ideal) x0 x1 x2) hl).trans (v6_at x0 x1 x2 b q (k : Fin 2048))

/-- The exponentials of the shifted scores. -/
theorem v13_at (b : Fin 4) (q k : Fin 2048) :
    val_main_v13 (F := Ideal) x0 x1 x2 (ix3 b q k)
      = Ideal.exp (score (projA x0 x1) (projA x0 x2) csRef b q k
          - Finset.univ.fold max (⊥ : EReal) (fun k' : Fin 2048 => score (projA x0 x1) (projA x0 x2) csRef b q k')) := by
  rw [val_main_v13_apply, val_main_v12_apply, val_main_v11_apply, val_main_v10_apply]
  have hi : idx_main_v10 (idx_main_v11 (ix3 b q k)) = ix2 b q := funext fun a => by
    match a with
    | ⟨0, _⟩ => rfl
    | ⟨1, _⟩ => rfl
  rw [hi, v9_at, v6_at]
  rfl

/-- The row sums of the exponentials. -/
theorem v14_at (b : Fin 4) (q : Fin 2048) :
    val_main_v14 (F := Ideal) x0 x1 x2 (ix2 b q)
      = ∑ k : Fin 2048, Ideal.exp (score (projA x0 x1) (projA x0 x2) csRef b q k
          - Finset.univ.fold max (⊥ : EReal) (fun k' : Fin 2048 => score (projA x0 x1) (projA x0 x2) csRef b q k')) := by
  rw [val_main_v14_apply]
  change Ideal.ofBits .f32 0x00000000#32 + _ = _
  rw [Ideal.ofBits_zero_f32, zero_add]
  apply Finset.sum_congr rfl
  intro k _
  have hi : idx_main_v14 (ix2 b q) k = ix3 b q k := funext fun a => by
    match a with
    | ⟨0, _⟩ => rfl
    | ⟨1, _⟩ => rfl
    | ⟨2, _⟩ => rfl
  rw [hi, v13_at]

/-- THE REFERENCE IS THE SPECIFICATION, with the scale 1 / sqrt 1024. -/
theorem ref_eq_G : val_main_v18 (F := Ideal) x0 x1 x2 = G x0 x1 x2 csRef := by
  funext i
  obtain ⟨b, q, d, rfl⟩ : ∃ (b : Fin 4) (q : Fin 2048) (d : Fin 1024), i = ix3 b q d := ⟨i 0, i 1, i 2, eq_ix3 i⟩
  rw [val_main_v18_apply]
  unfold G attn direct
  apply Finset.sum_congr rfl
  intro k _
  have hl : lidx_main_v18 (ix3 b q d) k = ix3 b q k := funext fun a => by
    match a with
    | ⟨0, _⟩ => rfl
    | ⟨1, _⟩ => rfl
    | ⟨2, _⟩ => rfl
  have hr : ridx_main_v18 (ix3 b q d) k = ix3 b k d := funext fun a => by
    match a with
    | ⟨0, _⟩ => rfl
    | ⟨1, _⟩ => rfl
    | ⟨2, _⟩ => rfl
  rw [hl, hr, val_main_v17_apply, val_main_v16_apply, val_main_v15_apply]
  have hi : idx_main_v15 (idx_main_v16 (ix3 b q k)) = ix2 b q := funext fun a => by
    match a with
    | ⟨0, _⟩ => rfl
    | ⟨1, _⟩ => rfl
  rw [hi, v14_at, v13_at]
  rfl

end Cert.ReferenceIdeal.RefValue

end
-- ==== Proof.FiniteInputs.lean ====
/- From the precondition to the real numbers. The precondition says, of each of the three input arrays, that
   `|x| < +∞` holds at every entry (an `and`-reduction of the entrywise comparison that comes out 1). At the ideal
   instance an entry is an extended real, `|x|` is `max x (-x)`, and `max x (-x) < ⊤` excludes exactly `⊤` and `⊥`: every
   entry is a real number. -/
import proofs.«154830_j65481071407513_2_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Proof.Finite

open Idealize.ShloMosaic Cert.Pre_finite_inputs

/-- The shape with no axes has one index. -/
instance : Subsingleton S_.Idx := ⟨fun a b => funext fun d => d.elim0⟩

/-- The f32 pattern 0x7F800000 is `+∞`. -/
theorem inf_eq_top : Ideal.ofBits .f32 0x7F800000#32 = (⊤ : EReal) := by simp [Ideal.ofBits, Ideal.ieee]

/-- `|x| < +∞` says that `x` is a real number: `max x (-x)` is `⊤` at both infinities. -/
theorem real_of_abs_lt_inf (x : EReal)
    (h : Ideal.cmp .olt (max x (-x)) (Ideal.ofBits .f32 0x7F800000#32) = 1#1) : ∃ a : ℝ, x = (a : EReal) := by
  rw [inf_eq_top] at h
  induction x using EReal.rec with
  | bot => exfalso; revert h; simp [Ideal.cmp]
  | coe a => exact ⟨a, rfl⟩
  | top => exfalso; revert h; simp [Ideal.cmp]

/-- Under the precondition every entry of each of the three input arrays is a real number. -/
theorem real_of_pre [Cert.Pre_finite_inputs.Facts]
    (x : (⟨S4x2048x1024, .f32⟩ : BufTy).Contents (Elt Ideal)) (rot ent : (⟨S1024x1024, .f32⟩ : BufTy).Contents (Elt Ideal))
    (h : Cert.Pre_finite_inputs.fn (F := Ideal) x rot ent = fun _ => 1#1) :
    (∀ i, ∃ a : ℝ, x i = (a : EReal)) ∧ (∀ i, ∃ a : ℝ, rot i = (a : EReal)) ∧ (∀ i, ∃ a : ℝ, ent i = (a : EReal)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact real_of_abs_lt_inf (x i) (Host.reduce_andi_all _ _ _ _ ValueIdx.ix0 h0' i)
  · exact real_of_abs_lt_inf (rot i) (Host.reduce_andi_all _ _ _ _ ValueIdx.ix0 h1 i)
  · exact real_of_abs_lt_inf (ent i) (Host.reduce_andi_all _ _ _ _ ValueIdx.ix0 h2 i)

end Cert.Proof.Finite

end
-- ==== Proof.lean ====
/-
  Single-head attention with fused projections, against its plain softmax reference, on the extended reals.

  THE CLAIM.  With x of shape [4, 2048, 1024] and two [1024, 1024] matrices, both programs compute, for every batch b,
  query row q and column d,
      out(b, q, d) = sum_k softmax_k (Q(b, q, .) . K(b, k, .) / sqrt 1024) * x(b, k, d),
  Q and K the projections of x by the two matrices.  The reference does it directly: scores, row maximum, exponentials
  of the shifted scores, row sums, quotients, weighted sum.  The kernel does it in two regions: the first projects the
  flattened rows of x block by block; the second is an online softmax — for each tile of 1024 query rows it meets the
  2048 keys in eight blocks of 256 and keeps, per row, a running maximum, denominator and numerator, rescaling the last
  two by exp (old maximum - new maximum) at every block and dividing at the end.

  WHY THEY AGREE.  The reference is the specification entry by entry (Proof/RefIsSpec.lean), with the scale written
  1 / sqrt 1024; the kernel's literal 0.03125 is the same number, 1/32.  For the kernel, the running triple of a row
  after j blocks is the online-softmax triple of that row's scores against the first 256 j keys (an induction over the
  key blocks, Proof/AttnValue.lean), and for REAL scores and values numerator over denominator after the last block is
  the softmax-weighted sum over all keys (Proof/LibOnlineSoftmax.lean: both are the real quotient
  (sum_k exp (s k - M) x k) / (sum_k exp (s k - M)), which does not depend on the shift M; the first block, where the
  old maximum is -inf, contributes exp (-inf) = 0 times 0).  Finiteness of the inputs is used exactly there: the
  projections, hence the scores, are then real.  At an infinite score the rescaling meets 0 * inf and the law fails.
  The arrays between the regions are read through the two reshapes (Proof/KernelValue.lean) and the first region's
  blocks (Proof/ProjValue.lean).

  THE FRAMES.  Both kernel programs run to the end without a fault and leave their arguments unchanged: each of the two
  regions is run point by point over the buffer contents it is entered with — the second region's invariant carries the
  three scratch buffers at their named contents between the points of a tile — and the host reshapes in between move
  whole buffers (Proof/Assembly.lean and its word-level twin).  The reference has no kernel; its run is generated.
  The idealized kernel differs from the printed one by no rewrite, so there is nothing to preserve.
-/
import proofs.«154830_j65481071407513_2_alg».proof.Defs
import proofs.«154830_j65481071407513_2_alg».proof.Proof.Gen.Kernel
import proofs.«154830_j65481071407513_2_alg».proof.Proof.Gen.KernelIdeal
import proofs.«154830_j65481071407513_2_alg».proof.Proof.Gen.ReferenceIdeal
import proofs.«154830_j65481071407513_2_alg».proof.Proof.Gen.Pre_finite_inputs
import proofs.«154830_j65481071407513_2_alg».proof.Proof.Gen.ReferenceIdeal.Read
import proofs.«154830_j65481071407513_2_alg».proof.Proof.AssemblyBits
import proofs.«154830_j65481071407513_2_alg».proof.Proof.KernelValue
import proofs.«154830_j65481071407513_2_alg».proof.Proof.RefIsSpec
import proofs.«154830_j65481071407513_2_alg».proof.Proof.FiniteInputs

noncomputable section

namespace Cert.Proof

open Idealize.ShloMosaic Idealize.SL.Sem

/-- The reference's scale 1 / sqrt 1024 and the kernel's literal 0.03125 are the same real, 1/32. -/
theorem scale_eq : Cert.ReferenceIdeal.RefValue.csRef = Cert.KernelIdeal.Hand.csK := by
  have h1 : Ideal.ofBits .f32 0x3F800000#32 = ((1 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.sqrt ((1024 : ℝ) : EReal) = ((32 : ℝ) : EReal) := by
    rw [Ideal.sqrt_coe, if_neg (by norm_num)]
    congr 1
    rw [show (1024 : ℝ) = 32 ^ 2 by norm_num]
    exact Real.sqrt_sq (by norm_num)
  show Ideal.div (Ideal.ofBits .f32 0x3F800000#32) (Ideal.sqrt (Ideal.ofBits .f32 0x44800000#32)) = Ideal.ofBits .f32 0x3D000000#32
  rw [h1, h2, h3, Cert.KernelIdeal.Hand.scale_word, Ideal.div_coe (by norm_num), ← EReal.coe_mul]
  norm_num

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Under finite inputs the idealized kernel's result and the idealized reference's are one array: the
    specification of the (agreeing) arguments. -/
theorem algebraic : Cert.algebraic_KernelIdeal_ReferenceIdeal := by
  intro m ρ m' ρ' hpre hagree
  have hreal := fun c => Cert.Proof.Finite.real_of_pre _ _ _ (hpre c)
  refine ⟨fun c => Cert.Attn.G (Cert.KernelIdeal.Hand.argX m c) (Cert.KernelIdeal.Hand.argRot m c)
      (Cert.KernelIdeal.Hand.argEnt m c) Cert.KernelIdeal.Hand.csK,
    Cert.KernelIdeal.Hand.kernel_run m ρ (fun c => (hreal c).1) (fun c => (hreal c).2.1) (fun c => (hreal c).2.2), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v18_eq, Cert.ReferenceIdeal.RefValue.ref_eq_G, (hagree c).1, (hagree c).2.1,
    (hagree c).2.2, scale_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
